-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S_ : Shape := ⟨0, ![]⟩

class Facts : Prop where
  bcast_S_S6000x22x3 : S_.BroadcastsInDim S6000x22x3 (![] : Fin 0 → Fin S6000x22x3.rank)
  reducesTo_S6000x22x3_S_d0_1_2 : S6000x22x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S3x64 .f32) (main_arg5 : FVec F S64x4 .f32) (main_arg6 : FVec F S4 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x4 .f32 := Host.absf main_arg5
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S6000x22x3 .f32) (main_arg1 : FVec F S3x64 .f32) (main_arg2 : FVec F S64 .f32) (main_arg3 : FVec F S3x64x64 .f32) (main_arg4 : FVec F S3x64 .f32) (main_arg5 : FVec F S64x4 .f32) (main_arg6 : FVec F S4 .f32) (main_arg7 : IVec S2x132000 32) : IVec S_ 1 :=
  let main_v0 : FVec F S6000x22x3 .f32 := Host.absf main_arg0
  let main_cst : FVec F S_ .f32 := constant S_ .f32 0x7F800000#32
  let main_v1 : FVec F S6000x22x3 .f32 := broadcastInDim S6000x22x3 ![] bcast_S_S6000x22x3 main_cst
  let main_v2 : IVec S6000x22x3 1 := cmpf .olt main_v0 main_v1
  let main_c : IVec S_ 1 := constantI S_ 1 1#1
  let main_v3 : IVec S_ 1 := (fun x v => Host.reduce IntOp.andi x v reducesTo_S6000x22x3_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_v13 main_v16
-- ==== Kernel.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S132000x3 : Shape := ⟨2, ![132000, 3]⟩
abbrev S1x64 : Shape := ⟨2, ![1, 64]⟩
abbrev S1x4 : Shape := ⟨2, ![1, 4]⟩
abbrev S132000x2 : Shape := ⟨2, ![132000, 2]⟩
abbrev S_ : Shape := ⟨0, ![]⟩
abbrev S12000x12000 : Shape := ⟨2, ![12000, 12000]⟩
abbrev S1x132000 : Shape := ⟨2, ![1, 132000]⟩
abbrev S132000 : Shape := ⟨1, ![132000]⟩
abbrev S264000 : Shape := ⟨1, ![264000]⟩
abbrev S132000x1 : Shape := ⟨2, ![132000, 1]⟩
abbrev S264000x1 : Shape := ⟨2, ![264000, 1]⟩
abbrev S264000x2 : Shape := ⟨2, ![264000, 2]⟩
abbrev S6000x3 : Shape := ⟨2, ![6000, 3]⟩
abbrev S6000x2 : Shape := ⟨2, ![6000, 2]⟩
abbrev S6000x64 : Shape := ⟨2, ![6000, 64]⟩
abbrev S1x64x64 : Shape := ⟨3, ![1, 64, 64]⟩
abbrev S64x64 : Shape := ⟨2, ![64, 64]⟩
abbrev S6000x4 : Shape := ⟨2, ![6000, 4]⟩

abbrev nBuf : Space → Nat
  | .hbm => 71
  | .vmem => 10
  | .smem => 0
  | _ => 0

abbrev bufTy : (tb : Table) → Fin (tcTables nBuf tb) → BufTy
  | .hbm, ⟨0, _⟩ => ⟨S6000x22x3, .f32⟩
  | .hbm, ⟨1, _⟩ => ⟨S3x64, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S64x4, .f32⟩
  | .hbm, ⟨6, _⟩ => ⟨S4, .f32⟩
  | .hbm, ⟨7, _⟩ => ⟨S2x132000, .i32⟩
  | .hbm, ⟨8, _⟩ => ⟨S132000x3, .f32⟩
  | .hbm, ⟨9, _⟩ => ⟨S1x64, .f32⟩
  | .hbm, ⟨10, _⟩ => ⟨S1x4, .f32⟩
  | .hbm, ⟨11, _⟩ => ⟨S132000x2, .f32⟩
  | .hbm, ⟨12, _⟩ => ⟨S_, .f32⟩
  | .hbm, ⟨13, _⟩ => ⟨S12000x12000, .f32⟩
  | .hbm, ⟨14, _⟩ => ⟨S1x132000, .i32⟩
  | .hbm, ⟨15, _⟩ => ⟨S132000, .i32⟩
  | .hbm, ⟨16, _⟩ => ⟨S_, .i32⟩
  | .hbm, ⟨17, _⟩ => ⟨S132000, .i32⟩
  | .hbm, ⟨18, _⟩ => ⟨S132000, .i32⟩
  | .hbm, ⟨19, _⟩ => ⟨S_, .i32⟩
  | .hbm, ⟨20, _⟩ => ⟨S132000, .i32⟩
  | .hbm, ⟨21, _⟩ => ⟨S132000, .i32⟩
  | .hbm, ⟨22, _⟩ => ⟨S1x132000, .i32⟩
  | .hbm, ⟨23, _⟩ => ⟨S132000, .i32⟩
  | .hbm, ⟨24, _⟩ => ⟨S_, .i32⟩
  | .hbm, ⟨25, _⟩ => ⟨S132000, .i32⟩
  | .hbm, ⟨26, _⟩ => ⟨S132000, .i32⟩
  | .hbm, ⟨27, _⟩ => ⟨S_, .i32⟩
  | .hbm, ⟨28, _⟩ => ⟨S132000, .i32⟩
  | .hbm, ⟨29, _⟩ => ⟨S132000, .i32⟩
  | .hbm, ⟨30, _⟩ => ⟨S264000, .i32⟩
  | .hbm, ⟨31, _⟩ => ⟨S1x132000, .i32⟩
  | .hbm, ⟨32, _⟩ => ⟨S132000, .i32⟩
  | .hbm, ⟨33, _⟩ => ⟨S_, .i32⟩
  | .hbm, ⟨34, _⟩ => ⟨S132000, .i32⟩
  | .hbm, ⟨35, _⟩ => ⟨S132000, .i32⟩
  | .hbm, ⟨36, _⟩ => ⟨S_, .i32⟩
  | .hbm, ⟨37, _⟩ => ⟨S132000, .i32⟩
  | .hbm, ⟨38, _⟩ => ⟨S132000, .i32⟩
  | .hbm, ⟨39, _⟩ => ⟨S1x132000, .i32⟩
  | .hbm, ⟨40, _⟩ => ⟨S132000, .i32⟩
  | .hbm, ⟨41, _⟩ => ⟨S_, .i32⟩
  | .hbm, ⟨42, _⟩ => ⟨S132000, .i32⟩
  | .hbm, ⟨43, _⟩ => ⟨S132000, .i32⟩
  | .hbm, ⟨44, _⟩ => ⟨S_, .i32⟩
  | .hbm, ⟨45, _⟩ => ⟨S132000, .i32⟩
  | .hbm, ⟨46, _⟩ => ⟨S132000, .i32⟩
  | .hbm, ⟨47, _⟩ => ⟨S264000, .i32⟩
  | .hbm, ⟨48, _⟩ => ⟨S132000x1, .f32⟩
  | .hbm, ⟨49, _⟩ => ⟨S132000, .f32⟩
  | .hbm, ⟨50, _⟩ => ⟨S132000x1, .f32⟩
  | .hbm, ⟨51, _⟩ => ⟨S132000, .f32⟩
  | .hbm, ⟨52, _⟩ => ⟨S264000, .f32⟩
  | .hbm, ⟨53, _⟩ => ⟨S_, .i32⟩
  | .hbm, ⟨54, _⟩ => ⟨S264000, .i32⟩
  | .hbm, ⟨55, _⟩ => ⟨S264000, .i1⟩
  | .hbm, ⟨56, _⟩ => ⟨S_, .i32⟩
  | .hbm, ⟨57, _⟩ => ⟨S264000, .i32⟩
  | .hbm, ⟨58, _⟩ => ⟨S264000, .i32⟩
  | .hbm, ⟨59, _⟩ => ⟨S264000, .i32⟩
  | .hbm, ⟨60, _⟩ => ⟨S_, .i32⟩
  | .hbm, ⟨61, _⟩ => ⟨S264000, .i32⟩
  | .hbm, ⟨62, _⟩ => ⟨S264000, .i1⟩
  | .hbm, ⟨63, _⟩ => ⟨S_, .i32⟩
  | .hbm, ⟨64, _⟩ => ⟨S264000, .i32⟩
  | .hbm, ⟨65, _⟩ => ⟨S264000, .i32⟩
  | .hbm, ⟨66, _⟩ => ⟨S264000, .i32⟩
  | .hbm, ⟨67, _⟩ => ⟨S264000x1, .i32⟩
  | .hbm, ⟨68, _⟩ => ⟨S264000x1, .i32⟩
  | .hbm, ⟨69, _⟩ => ⟨S264000x2, .i32⟩
  | .hbm, ⟨70, _⟩ => ⟨S12000x12000, .f32⟩
  | .local _ .vmem, ⟨0, _⟩ => ⟨S6000x3, .f32⟩
  | .local _ .vmem, ⟨1, _⟩ => ⟨S6000x3, .f32⟩
  | .local _ .vmem, ⟨2, _⟩ => ⟨S3x64, .f32⟩
  | .local _ .vmem, ⟨3, _⟩ => ⟨S1x64, .f32⟩
  | .local _ .vmem, ⟨4, _⟩ => ⟨S3x64x64, .f32⟩
  | .local _ .vmem, ⟨5, _⟩ => ⟨S3x64, .f32⟩
  | .local _ .vmem, ⟨6, _⟩ => ⟨S64x4, .f32⟩
  | .local _ .vmem, ⟨7, _⟩ => ⟨S1x4, .f32⟩
  | .local _ .vmem, ⟨8, _⟩ => ⟨S6000x2, .f32⟩
  | .local _ .vmem, ⟨9, _⟩ => ⟨S6000x2, .f32⟩
  | _, _ => ⟨S6000x22x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c : Ref sig .tc := ⟨.hbm, 16, rfl⟩
abbrev main_call0_v7 : Ref sig .tc := ⟨.hbm, 17, rfl⟩
abbrev main_call0_v8 : Ref sig .tc := ⟨.hbm, 18, rfl⟩
abbrev main_call0_c_0 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_1 : Ref sig .tc := ⟨.hbm, 24, rfl⟩
abbrev main_call0_v13 : Ref sig .tc := ⟨.hbm, 25, rfl⟩
abbrev main_call0_v14 : Ref sig .tc := ⟨.hbm, 26, rfl⟩
abbrev main_call0_c_2 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_c_3 : Ref sig .tc := ⟨.hbm, 33, rfl⟩
abbrev main_call0_v20 : Ref sig .tc := ⟨.hbm, 34, rfl⟩
abbrev main_call0_v21 : Ref sig .tc := ⟨.hbm, 35, rfl⟩
abbrev main_call0_c_4 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_c_5 : Ref sig .tc := ⟨.hbm, 41, rfl⟩
abbrev main_call0_v26 : Ref sig .tc := ⟨.hbm, 42, rfl⟩
abbrev main_call0_v27 : Ref sig .tc := ⟨.hbm, 43, rfl⟩
abbrev main_call0_c_6 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_c_7 : Ref sig .tc := ⟨.hbm, 53, rfl⟩
abbrev main_call0_v36 : Ref sig .tc := ⟨.hbm, 54, rfl⟩
abbrev main_call0_v37 : Ref sig .tc := ⟨.hbm, 55, rfl⟩
abbrev main_call0_c_8 : Ref sig .tc := ⟨.hbm, 56, rfl⟩
abbrev main_call0_v38 : Ref sig .tc := ⟨.hbm, 57, rfl⟩
abbrev main_call0_v39 : Ref sig .tc := ⟨.hbm, 58, rfl⟩
abbrev main_call0_v40 : Ref sig .tc := ⟨.hbm, 59, rfl⟩
abbrev main_call0_c_9 : Ref sig .tc := ⟨.hbm, 60, rfl⟩
abbrev main_call0_v41 : Ref sig .tc := ⟨.hbm, 61, rfl⟩
abbrev main_call0_v42 : Ref sig .tc := ⟨.hbm, 62, rfl⟩
abbrev main_call0_c_10 : Ref sig .tc := ⟨.hbm, 63, rfl⟩
abbrev main_call0_v43 : Ref sig .tc := ⟨.hbm, 64, rfl⟩
abbrev main_call0_v44 : Ref sig .tc := ⟨.hbm, 65, rfl⟩
abbrev main_call0_v45 : Ref sig .tc := ⟨.hbm, 66, rfl⟩
abbrev main_call0_v46 : Ref sig .tc := ⟨.hbm, 67, rfl⟩
abbrev main_call0_v47 : Ref sig .tc := ⟨.hbm, 68, rfl⟩
abbrev main_call0_v48 : Ref sig .tc := ⟨.hbm, 69, rfl⟩
abbrev main_v0 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S6000x22x3_S132000x3 : S6000x22x3.ShapeCasts S132000x3
  shapeCasts_S64_S1x64 : S64.ShapeCasts S1x64
  shapeCasts_S4_S1x4 : S4.ShapeCasts S1x4
  bcast_S_S12000x12000 : S_.BroadcastsInDim S12000x12000 (![] : Fin 0 → Fin S12000x12000.rank)
  slices_S2x132000_S1x132000_0_0 : S2x132000.Slices ![0, 0] S1x132000
  shapeCasts_S1x132000_S132000 : S1x132000.ShapeCasts S132000
  bcast_S_S132000 : S_.BroadcastsInDim S132000 (![] : Fin 0 → Fin S132000.rank)
  concatenates_S132000_S132000_S264000_d0 : Shape.Concatenates [S132000, S132000] S264000 0
  slices_S2x132000_S1x132000_1_0 : S2x132000.Slices ![1, 0] S1x132000
  slices_S132000x2_S132000x1_0_0 : S132000x2.Slices ![0, 0] S132000x1
  shapeCasts_S132000x1_S132000 : S132000x1.ShapeCasts S132000
  slices_S132000x2_S132000x1_0_1 : S132000x2.Slices ![0, 1] S132000x1
  bcast_S_S264000 : S_.BroadcastsInDim S264000 (![] : Fin 0 → Fin S264000.rank)
  bcast_S264000_S264000x1_0 : S264000.BroadcastsInDim S264000x1 (![0] : Fin 1 → Fin S264000x1.rank)
  concatenates_S264000x1_S264000x1_S264000x2_d1 : Shape.Concatenates [S264000x1, S264000x1] S264000x2 1
  inb_S6000x3_S6000x3_0_0 : ∀ a, (![0, 0] : Fin 2 → Nat) a + S6000x3.size a ≤ S6000x3.size a
  h_S6000x3 : 0 < S6000x3.numel
  shapeCasts_S6000x3_S6000x3 : S6000x3.ShapeCasts S6000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S6000x64 : S1x64.Broadcasts S6000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S4 : S1x4.ShapeCasts S4
  broadcasts_S1x4_S6000x4 : S1x4.Broadcasts S6000x4
  slices_S6000x4_o0_0_S6000x2 : S6000x4.Slices ![0, 0] S6000x2
  slices_S6000x4_o0_2_S6000x2 : S6000x4.Slices ![0, 2] S6000x2
  inb_S6000x2_S6000x2_0_0 : ∀ a, (![0, 0] : Fin 2 → Nat) a + S6000x2.size a ≤ S6000x2.size a
  h_S6000x2 : 0 < S6000x2.numel
  scatter_S12000x12000_S264000x2_S264000_n_01_01_1_wf : ScatterDims.WF S12000x12000 S264000x2 S264000 [] [0, 1] [0, 1] 1
  dot_S6000x3_S3x64_S6000x64_1_0_0_1_n_n_wf : DotDims.WF S6000x3 S3x64 S6000x64 [1] [0] [0] [1] [] []
  dot_S6000x64_S64x64_S6000x64_1_0_0_1_n_n_wf : DotDims.WF S6000x64 S64x64 S6000x64 [1] [0] [0] [1] [] []
  dot_S6000x64_S64x4_S6000x4_1_0_0_1_n_n_wf : DotDims.WF S6000x64 S64x4 S6000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x3.size a ≤ S132000x3.size a
  hwx0_0 : ∀ i : grid0.Coords, EltTy.bits .f32 = 32 ∨ (Rect.block (s := S132000x3) S6000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x2.size a ≤ S132000x2.size a
  hwx0_7 : ∀ i : grid0.Coords, EltTy.bits .f32 = 32 ∨ (Rect.block (s := S132000x2) S6000x2.size (cc0_transform_7 i) (hinb0_7 i)).WholeWords (EltTy.packing .f32)

variable [Facts₀]

def scatter_S12000x12000_S264000x2_S264000_n_01_01_1 : ScatterDims S12000x12000 S264000x2 S264000 where
  updateWindowDims := []
  insertedWindowDims := [0, 1]
  scatterDimsToOperandDims := [0, 1]
  indexVectorDim := 1
  wf := scatter_S12000x12000_S264000x2_S264000_n_01_01_1_wf
def dot_S6000x3_S3x64_S6000x64_1_0_0_1_n_n : DotDims S6000x3 S3x64 S6000x64 where
  lhsContracting := [1]
  rhsContracting := [0]
  lhsNonContracting := [0]
  rhsNonContracting := [1]
  lhsBatch := []
  rhsBatch := []
  wf := dot_S6000x3_S3x64_S6000x64_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S6000x64_S64x4_S6000x4_1_0_0_1_n_n : DotDims S6000x64 S64x4 S6000x4 where
  lhsContracting := [1]
  rhsContracting := [0]
  lhsNonContracting := [0]
  rhsNonContracting := [1]
  lhsBatch := []
  rhsBatch := []
  wf := dot_S6000x64_S64x4_S6000x4_1_0_0_1_n_n_wf

abbrev win0_0 : Pipeline.Window sig grid0 :=
  Pipeline.Window.ofSpec (Memref.whole main_call0_v0) S6000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S6000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S6000x22x3 : Shape := ⟨3, ![6000, 22, 3]⟩
abbrev S3x64 : Shape := ⟨2, ![3, 64]⟩
abbrev S64 : Shape := ⟨1, ![64]⟩
abbrev S3x64x64 : Shape := ⟨3, ![3, 64, 64]⟩
abbrev S64x4 : Shape := ⟨2, ![64, 4]⟩
abbrev S4 : Shape := ⟨1, ![4]⟩
abbrev S2x132000 : Shape := ⟨2, ![2, 132000]⟩
abbrev S132000x3 : Shape := ⟨2, ![132000, 3]⟩
abbrev S132000x64 : Shape := ⟨2, ![132000, 64]⟩
abbrev S1x64 : Shape := ⟨2, ![1, 64]⟩
abbrev S_ : Shape := ⟨0, ![]⟩
abbrev S1x64x64 : Shape := ⟨3, ![1, 64, 64]⟩
abbrev S64x64 : Shape := ⟨2, ![64, 64]⟩
abbrev S132000x4 : Shape := ⟨2, ![132000, 4]⟩
abbrev S1x4 : Shape := ⟨2, ![1, 4]⟩
abbrev S132000x2x2 : Shape := ⟨3, ![132000, 2, 2]⟩
abbrev S132000x2 : Shape := ⟨2, ![132000, 2]⟩
abbrev S12000x12000 : Shape := ⟨2, ![12000, 12000]⟩
abbrev S1x132000 : Shape := ⟨2, ![1, 132000]⟩
abbrev S132000 : Shape := ⟨1, ![132000]⟩
abbrev S132000x1 : Shape := ⟨2, ![132000, 1]⟩

abbrev nBuf : Space → Nat
  | .hbm => 118
  | .vmem => 0
  | .smem => 0
  | _ => 0

abbrev bufTy : (tb : Table) → Fin (tcTables nBuf tb) → BufTy
  | .hbm, ⟨0, _⟩ => ⟨S6000x22x3, .f32⟩
  | .hbm, ⟨1, _⟩ => ⟨S3x64, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S64x4, .f32⟩
  | .hbm, ⟨6, _⟩ => ⟨S4, .f32⟩
  | .hbm, ⟨7, _⟩ => ⟨S2x132000, .i32⟩
  | .hbm, ⟨8, _⟩ => ⟨S132000x3, .f32⟩
  | .hbm, ⟨9, _⟩ => ⟨S132000x64, .f32⟩
  | .hbm, ⟨10, _⟩ => ⟨S1x64, .f32⟩
  | .hbm, ⟨11, _⟩ => ⟨S132000x64, .f32⟩
  | .hbm, ⟨12, _⟩ => ⟨S132000x64, .f32⟩
  | .hbm, ⟨13, _⟩ => ⟨S_, .f32⟩
  | .hbm, ⟨14, _⟩ => ⟨S132000x64, .f32⟩
  | .hbm, ⟨15, _⟩ => ⟨S132000x64, .f32⟩
  | .hbm, ⟨16, _⟩ => ⟨S1x64x64, .f32⟩
  | .hbm, ⟨17, _⟩ => ⟨S64x64, .f32⟩
  | .hbm, ⟨18, _⟩ => ⟨S132000x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S132000x64, .f32⟩
  | .hbm, ⟨23, _⟩ => ⟨S132000x64, .f32⟩
  | .hbm, ⟨24, _⟩ => ⟨S_, .f32⟩
  | .hbm, ⟨25, _⟩ => ⟨S132000x64, .f32⟩
  | .hbm, ⟨26, _⟩ => ⟨S132000x64, .f32⟩
  | .hbm, ⟨27, _⟩ => ⟨S1x64x64, .f32⟩
  | .hbm, ⟨28, _⟩ => ⟨S64x64, .f32⟩
  | .hbm, ⟨29, _⟩ => ⟨S132000x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S132000x64, .f32⟩
  | .hbm, ⟨34, _⟩ => ⟨S132000x64, .f32⟩
  | .hbm, ⟨35, _⟩ => ⟨S_, .f32⟩
  | .hbm, ⟨36, _⟩ => ⟨S132000x64, .f32⟩
  | .hbm, ⟨37, _⟩ => ⟨S132000x64, .f32⟩
  | .hbm, ⟨38, _⟩ => ⟨S1x64x64, .f32⟩
  | .hbm, ⟨39, _⟩ => ⟨S64x64, .f32⟩
  | .hbm, ⟨40, _⟩ => ⟨S132000x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S132000x64, .f32⟩
  | .hbm, ⟨45, _⟩ => ⟨S132000x64, .f32⟩
  | .hbm, ⟨46, _⟩ => ⟨S_, .f32⟩
  | .hbm, ⟨47, _⟩ => ⟨S132000x64, .f32⟩
  | .hbm, ⟨48, _⟩ => ⟨S132000x64, .f32⟩
  | .hbm, ⟨49, _⟩ => ⟨S132000x4, .f32⟩
  | .hbm, ⟨50, _⟩ => ⟨S1x4, .f32⟩
  | .hbm, ⟨51, _⟩ => ⟨S132000x4, .f32⟩
  | .hbm, ⟨52, _⟩ => ⟨S132000x4, .f32⟩
  | .hbm, ⟨53, _⟩ => ⟨S132000x2x2, .f32⟩
  | .hbm, ⟨54, _⟩ => ⟨S_, .f32⟩
  | .hbm, ⟨55, _⟩ => ⟨S132000x2, .f32⟩
  | .hbm, ⟨56, _⟩ => ⟨S_, .f32⟩
  | .hbm, ⟨57, _⟩ => ⟨S12000x12000, .f32⟩
  | .hbm, ⟨58, _⟩ => ⟨S_, .i32⟩
  | .hbm, ⟨59, _⟩ => ⟨S2x132000, .i32⟩
  | .hbm, ⟨60, _⟩ => ⟨S2x132000, .i32⟩
  | .hbm, ⟨61, _⟩ => ⟨S_, .i32⟩
  | .hbm, ⟨62, _⟩ => ⟨S2x132000, .i32⟩
  | .hbm, ⟨63, _⟩ => ⟨S2x132000, .i32⟩
  | .hbm, ⟨64, _⟩ => ⟨S1x132000, .i32⟩
  | .hbm, ⟨65, _⟩ => ⟨S132000, .i32⟩
  | .hbm, ⟨66, _⟩ => ⟨S1x132000, .i32⟩
  | .hbm, ⟨67, _⟩ => ⟨S132000, .i32⟩
  | .hbm, ⟨68, _⟩ => ⟨S132000x1, .f32⟩
  | .hbm, ⟨69, _⟩ => ⟨S132000, .f32⟩
  | .hbm, ⟨70, _⟩ => ⟨S_, .i32⟩
  | .hbm, ⟨71, _⟩ => ⟨S132000, .i32⟩
  | .hbm, ⟨72, _⟩ => ⟨S132000, .i1⟩
  | .hbm, ⟨73, _⟩ => ⟨S_, .i32⟩
  | .hbm, ⟨74, _⟩ => ⟨S132000, .i32⟩
  | .hbm, ⟨75, _⟩ => ⟨S132000, .i32⟩
  | .hbm, ⟨76, _⟩ => ⟨S132000, .i32⟩
  | .hbm, ⟨77, _⟩ => ⟨S_, .i32⟩
  | .hbm, ⟨78, _⟩ => ⟨S132000, .i32⟩
  | .hbm, ⟨79, _⟩ => ⟨S132000, .i1⟩
  | .hbm, ⟨80, _⟩ => ⟨S_, .i32⟩
  | .hbm, ⟨81, _⟩ => ⟨S132000, .i32⟩
  | .hbm, ⟨82, _⟩ => ⟨S132000, .i32⟩
  | .hbm, ⟨83, _⟩ => ⟨S132000, .i32⟩
  | .hbm, ⟨84, _⟩ => ⟨S132000x1, .i32⟩
  | .hbm, ⟨85, _⟩ => ⟨S132000x1, .i32⟩
  | .hbm, ⟨86, _⟩ => ⟨S132000x2, .i32⟩
  | .hbm, ⟨87, _⟩ => ⟨S12000x12000, .f32⟩
  | .hbm, ⟨88, _⟩ => ⟨S_, .i32⟩
  | .hbm, ⟨89, _⟩ => ⟨S2x132000, .i32⟩
  | .hbm, ⟨90, _⟩ => ⟨S2x132000, .i32⟩
  | .hbm, ⟨91, _⟩ => ⟨S_, .i32⟩
  | .hbm, ⟨92, _⟩ => ⟨S2x132000, .i32⟩
  | .hbm, ⟨93, _⟩ => ⟨S2x132000, .i32⟩
  | .hbm, ⟨94, _⟩ => ⟨S1x132000, .i32⟩
  | .hbm, ⟨95, _⟩ => ⟨S132000, .i32⟩
  | .hbm, ⟨96, _⟩ => ⟨S1x132000, .i32⟩
  | .hbm, ⟨97, _⟩ => ⟨S132000, .i32⟩
  | .hbm, ⟨98, _⟩ => ⟨S132000x1, .f32⟩
  | .hbm, ⟨99, _⟩ => ⟨S132000, .f32⟩
  | .hbm, ⟨100, _⟩ => ⟨S_, .i32⟩
  | .hbm, ⟨101, _⟩ => ⟨S132000, .i32⟩
  | .hbm, ⟨102, _⟩ => ⟨S132000, .i1⟩
  | .hbm, ⟨103, _⟩ => ⟨S_, .i32⟩
  | .hbm, ⟨104, _⟩ => ⟨S132000, .i32⟩
  | .hbm, ⟨105, _⟩ => ⟨S132000, .i32⟩
  | .hbm, ⟨106, _⟩ => ⟨S132000, .i32⟩
  | .hbm, ⟨107, _⟩ => ⟨S_, .i32⟩
  | .hbm, ⟨108, _⟩ => ⟨S132000, .i32⟩
  | .hbm, ⟨109, _⟩ => ⟨S132000, .i1⟩
  | .hbm, ⟨110, _⟩ => ⟨S_, .i32⟩
  | .hbm, ⟨111, _⟩ => ⟨S132000, .i32⟩
  | .hbm, ⟨112, _⟩ => ⟨S132000, .i32⟩
  | .hbm, ⟨113, _⟩ => ⟨S132000, .i32⟩
  | .hbm, ⟨114, _⟩ => ⟨S132000x1, .i32⟩
  | .hbm, ⟨115, _⟩ => ⟨S132000x1, .i32⟩
  | .hbm, ⟨116, _⟩ => ⟨S132000x2, .i32⟩
  | .hbm, ⟨117, _⟩ => ⟨S12000x12000, .f32⟩
  | _, _ => ⟨S6000x22x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call2_cst : Ref sig .tc := ⟨.hbm, 35, rfl⟩
abbrev main_call2_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call3_cst : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_c : Ref sig .tc := ⟨.hbm, 58, rfl⟩
abbrev main_v40 : Ref sig .tc := ⟨.hbm, 59, rfl⟩
abbrev main_v41 : Ref sig .tc := ⟨.hbm, 60, rfl⟩
abbrev main_c_1 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_2 : Ref sig .tc := ⟨.hbm, 70, rfl⟩
abbrev main_v50 : Ref sig .tc := ⟨.hbm, 71, rfl⟩
abbrev main_v51 : Ref sig .tc := ⟨.hbm, 72, rfl⟩
abbrev main_c_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_4 : Ref sig .tc := ⟨.hbm, 77, rfl⟩
abbrev main_v55 : Ref sig .tc := ⟨.hbm, 78, rfl⟩
abbrev main_v56 : Ref sig .tc := ⟨.hbm, 79, rfl⟩
abbrev main_c_5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_6 : Ref sig .tc := ⟨.hbm, 88, rfl⟩
abbrev main_v64 : Ref sig .tc := ⟨.hbm, 89, rfl⟩
abbrev main_v65 : Ref sig .tc := ⟨.hbm, 90, rfl⟩
abbrev main_c_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_8 : Ref sig .tc := ⟨.hbm, 100, rfl⟩
abbrev main_v74 : Ref sig .tc := ⟨.hbm, 101, rfl⟩
abbrev main_v75 : Ref sig .tc := ⟨.hbm, 102, rfl⟩
abbrev main_c_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_c_11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]

class Facts₀ : Prop where
  shapeCasts_S6000x22x3_S132000x3 : S6000x22x3.ShapeCasts S132000x3
  bcast_S64_S1x64_1 : S64.BroadcastsInDim S1x64 (![1] : Fin 1 → Fin S1x64.rank)
  bcast_S1x64_S132000x64_0_1 : S1x64.BroadcastsInDim S132000x64 (![0, 1] : Fin 2 → Fin S132000x64.rank)
  bcast_S_S132000x64 : S_.BroadcastsInDim S132000x64 (![] : Fin 0 → Fin S132000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S4_S1x4_1 : S4.BroadcastsInDim S1x4 (![1] : Fin 1 → Fin S1x4.rank)
  bcast_S1x4_S132000x4_0_1 : S1x4.BroadcastsInDim S132000x4 (![0, 1] : Fin 2 → Fin S132000x4.rank)
  shapeCasts_S132000x4_S132000x2x2 : S132000x4.ShapeCasts S132000x2x2
  reducesTo_S132000x2x2_S132000x2_d1 : S132000x2x2.ReducesTo [1] S132000x2
  h_S_ : 0 < S_.numel
  bcast_S_S12000x12000 : S_.BroadcastsInDim S12000x12000 (![] : Fin 0 → Fin S12000x12000.rank)
  bcast_S_S2x132000 : S_.BroadcastsInDim S2x132000 (![] : Fin 0 → Fin S2x132000.rank)
  slices_S2x132000_S1x132000_0_0 : S2x132000.Slices ![0, 0] S1x132000
  shapeCasts_S1x132000_S132000 : S1x132000.ShapeCasts S132000
  slices_S2x132000_S1x132000_1_0 : S2x132000.Slices ![1, 0] S1x132000
  slices_S132000x2_S132000x1_0_0 : S132000x2.Slices ![0, 0] S132000x1
  shapeCasts_S132000x1_S132000 : S132000x1.ShapeCasts S132000
  bcast_S_S132000 : S_.BroadcastsInDim S132000 (![] : Fin 0 → Fin S132000.rank)
  bcast_S132000_S132000x1_0 : S132000.BroadcastsInDim S132000x1 (![0] : Fin 1 → Fin S132000x1.rank)
  concatenates_S132000x1_S132000x1_S132000x2_d1 : Shape.Concatenates [S132000x1, S132000x1] S132000x2 1
  slices_S132000x2_S132000x1_0_1 : S132000x2.Slices ![0, 1] S132000x1
  dot_S132000x3_S3x64_S132000x64_1_0_0_1_n_n_wf : DotDims.WF S132000x3 S3x64 S132000x64 [1] [0] [0] [1] [] []
  dot_S132000x64_S64x64_S132000x64_1_0_0_1_n_n_wf : DotDims.WF S132000x64 S64x64 S132000x64 [1] [0] [0] [1] [] []
  dot_S132000x64_S64x4_S132000x4_1_0_0_1_n_n_wf : DotDims.WF S132000x64 S64x4 S132000x4 [1] [0] [0] [1] [] []
  scatter_S12000x12000_S132000x2_S132000_n_01_01_1_wf : ScatterDims.WF S12000x12000 S132000x2 S132000 [] [0, 1] [0, 1] 1

variable [Facts₀]

def dot_S132000x3_S3x64_S132000x64_1_0_0_1_n_n : DotDims S132000x3 S3x64 S132000x64 where
  lhsContracting := [1]
  rhsContracting := [0]
  lhsNonContracting := [0]
  rhsNonContracting := [1]
  lhsBatch := []
  rhsBatch := []
  wf := dot_S132000x3_S3x64_S132000x64_1_0_0_1_n_n_wf
def dot_S132000x64_S64x64_S132000x64_1_0_0_1_n_n : DotDims S132000x64 S64x64 S132000x64 where
  lhsContracting := [1]
  rhsContracting := [0]
  lhsNonContracting := [0]
  rhsNonContracting := [1]
  lhsBatch := []
  rhsBatch := []
  wf := dot_S132000x64_S64x64_S132000x64_1_0_0_1_n_n_wf
def dot_S132000x64_S64x4_S132000x4_1_0_0_1_n_n : DotDims S132000x64 S64x4 S132000x4 where
  lhsContracting := [1]
  rhsContracting := [0]
  lhsNonContracting := [0]
  rhsNonContracting := [1]
  lhsBatch := []
  rhsBatch := []
  wf := dot_S132000x64_S64x4_S132000x4_1_0_0_1_n_n_wf
def scatter_S12000x12000_S132000x2_S132000_n_01_01_1 : ScatterDims S12000x12000 S132000x2 S132000 where
  updateWindowDims := []
  insertedWindowDims := [0, 1]
  scatterDimsToOperandDims := [0, 1]
  indexVectorDim := 1
  wf := scatter_S12000x12000_S132000x2_S132000_n_01_01_1_wf

class Facts : Prop extends Facts₀ where

variable [Facts]
-- ==== Proof.MlpSpec.lean ====
/-
  The function of one input row that both programs compute before the scatter.

  A row r of three features goes through a perceptron 3 → 64 → 64 → 64 → 64 → 4: an affine map h ↦ h·W + b, then
  max(·, 0), four times, and a last affine map into four channels. The four channels are numbered 2·mi + mj; the value
  kept for mode mj is the sum over mi of channel 2·mi + mj, that is channel mj plus channel 2 + mj.

  Everything is stated on the extended reals with weights and biases as plain functions of their coordinates, so that
  a block of 6000 rows and the whole array of 132000 rows are instances of one definition. Nothing here needs the
  inputs to be finite: only sums, products and maxima are formed.
-/
import Idealize.ShloMosaic.Lib.ValueIdx
import Idealize.ShloMosaic.PureOps.Ideal

noncomputable section

namespace Cert.Mlp

open Idealize.ShloMosaic Idealize.ShloMosaic.ValueIdx

/-- An affine map of width K → N at output coordinate c: the sum over k of h k · W k c, plus b c. -/
def affine {K N : Nat} (W : Fin K → Fin N → EReal) (b : Fin N → EReal) (h : Fin K → EReal) (c : Fin N) : EReal :=
  ∑ k : Fin K, h k * W k c + b c

/-- The positive part, coordinate by coordinate. -/
def relu {N : Nat} (h : Fin N → EReal) (c : Fin N) : EReal := max (h c) 0

/-- The four output channels of one row. -/
def mlpRow (Win : Fin 3 → Fin 64 → EReal) (bin : Fin 64 → EReal) (Whid : Fin 3 → Fin 64 → Fin 64 → EReal)
    (bhid : Fin 3 → Fin 64 → EReal) (Wout : Fin 64 → Fin 4 → EReal) (bout : Fin 4 → EReal) (r : Fin 3 → EReal) :
    Fin 4 → EReal :=
  affine Wout bout (relu (affine (Whid 2) (bhid 2) (relu (affine (Whid 1) (bhid 1)
    (relu (affine (Whid 0) (bhid 0) (relu (affine Win bin r))))))))

/-- The value of one row for mode q: channel q plus channel 2 + q. -/
def valsRow (Win : Fin 3 → Fin 64 → EReal) (bin : Fin 64 → EReal) (Whid : Fin 3 → Fin 64 → Fin 64 → EReal)
    (bhid : Fin 3 → Fin 64 → EReal) (Wout : Fin 64 → Fin 4 → EReal) (bout : Fin 4 → EReal) (r : Fin 3 → EReal)
    (q : Fin 2) : EReal :=
  mlpRow Win bin Whid bhid Wout bout r ⟨q.val, by omega⟩ + mlpRow Win bin Whid bhid Wout bout r ⟨2 + q.val, by omega⟩

/-- The value at row m and mode q of the whole array, from the argument arrays: the weights and biases read by their
    coordinates, the row read off the 132000 × 3 matrix X of features. -/
def valsAt (a1 : (⟨2, ![3, 64]⟩ : Shape).Idx → EReal) (a2 : (⟨1, ![64]⟩ : Shape).Idx → EReal)
    (a3 : (⟨3, ![3, 64, 64]⟩ : Shape).Idx → EReal) (a4 : (⟨2, ![3, 64]⟩ : Shape).Idx → EReal)
    (a5 : (⟨2, ![64, 4]⟩ : Shape).Idx → EReal) (a6 : (⟨1, ![4]⟩ : Shape).Idx → EReal)
    (X : (⟨2, ![132000, 3]⟩ : Shape).Idx → EReal) (m : Fin 132000) (q : Fin 2) : EReal :=
  valsRow (fun k c => a1 (ix2 k c)) (fun c => a2 (ix1 c)) (fun l k c => a3 (ix3 l k c)) (fun l c => a4 (ix2 l c))
    (fun k c => a5 (ix2 k c)) (fun c => a6 (ix1 c)) (fun k => X (ix2 m k)) q

/-- The 132000 × 2 array of values. -/
def vals (a1 : (⟨2, ![3, 64]⟩ : Shape).Idx → EReal) (a2 : (⟨1, ![64]⟩ : Shape).Idx → EReal)
    (a3 : (⟨3, ![3, 64, 64]⟩ : Shape).Idx → EReal) (a4 : (⟨2, ![3, 64]⟩ : Shape).Idx → EReal)
    (a5 : (⟨2, ![64, 4]⟩ : Shape).Idx → EReal) (a6 : (⟨1, ![4]⟩ : Shape).Idx → EReal)
    (X : (⟨2, ![132000, 3]⟩ : Shape).Idx → EReal) : (⟨2, ![132000, 2]⟩ : Shape).Idx → EReal :=
  fun i => valsAt a1 a2 a3 a4 a5 a6 X (i 0) (i 1)

theorem vals_ix2 (a1 : (⟨2, ![3, 64]⟩ : Shape).Idx → EReal) (a2 : (⟨1, ![64]⟩ : Shape).Idx → EReal)
    (a3 : (⟨3, ![3, 64, 64]⟩ : Shape).Idx → EReal) (a4 : (⟨2, ![3, 64]⟩ : Shape).Idx → EReal)
    (a5 : (⟨2, ![64, 4]⟩ : Shape).Idx → EReal) (a6 : (⟨1, ![4]⟩ : Shape).Idx → EReal)
    (X : (⟨2, ![132000, 3]⟩ : Shape).Idx → EReal) (m : Fin 132000) (q : Fin 2) :
    vals a1 a2 a3 a4 a5 a6 X (ix2 m q) = valsAt a1 a2 a3 a4 a5 a6 X m q := rfl

end Cert.Mlp

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KernelBlock.lean ====
/-
  What one grid point writes, entry by entry.

  A grid point holds a block of 6000 rows of three features. Its body sends the block through five dense layers
  (3 → 64 → 64 → 64 → 64 → 4), the first four each followed by the maximum with zero, and stores, for mode q, channel q
  plus channel 2 + q of the last layer. On the extended reals a change of float format is the identity and a matrix
  product accumulated from the all-zero block is the plain sum over the contracted index, so entry (p, q) of the stored
  block is the row function of the specification at row p of the block. The first weight, the last weight and the two
  outer biases are read whole; hidden layer l reads slab l of the [3, 64, 64] weights as a [1, 64, 64] vector and row l
  of the [3, 64] biases as a [1, 64] vector, which is where the coordinate l of those two arguments comes from.

  The lemmas are stated over variables of the literal vector types and indices written by coordinates; each layer is read
  once, and the two payloads are then read "given what each operand reads", so that the loads enter only at the end.
-/
import proofs.«132408_j11347303596498_2_alg».proof.Proof.Gen.KernelIdeal.Frame
import proofs.«132408_j11347303596498_2_alg».proof.Proof.MlpSpec
import proofs.«132408_j11347303596498_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen
open Cert.Mlp

/-! ## Small readings -/

/-- A bias row [1, N], flattened to [N], restored to [1, N] and repeated over M rows, reads at (p, c) the row's entry c. -/
theorem bias_apply {M N : Nat} (b : (⟨2, ![1, N]⟩ : Shape).Idx → EReal)
    (h1 : (⟨2, ![1, N]⟩ : Shape).ShapeCasts ⟨1, ![N]⟩) (h2 : (⟨1, ![N]⟩ : Shape).ShapeCasts ⟨2, ![1, N]⟩)
    (h3 : (⟨2, ![1, N]⟩ : Shape).Broadcasts ⟨2, ![M, N]⟩) (p : Fin M) (c : Fin N) :
    broadcastTo ⟨2, ![M, N]⟩ (shapeCast ⟨2, ![1, N]⟩ (shapeCast ⟨1, ![N]⟩ b h1) h2) h3 (ix2 p c) = b (ix2 (0 : Fin 1) c) :=
  (broadcastTo_1b_ab_apply _ h3 p c).trans (congrFun (shapeCast_shapeCast b h1 h2) _)

/-- The maximum with the splat of the zero word is the positive part. -/
theorem relu_apply (v : FVec Ideal S6000x64 .f32) (p : Fin 6000) (c : Fin 64) :
    maximumf v (broadcast S6000x64 (Scalar.ofBits (F := Ideal) .f32 0x00000000#32)) (ix2 p c) = max (v (ix2 p c)) 0 :=
  congrArg (max (v (ix2 p c))) Ideal.ofBits_zero_f32

/-- Slab o of a [3, 64, 64] array, loaded as a [1, 64, 64] vector, reads at (0, k, c) the array at (o, k, c). -/
theorem ld_slab (x : Vec Ideal S3x64x64 .f32) (o : Nat)
    (inb : ∀ a, (![o, 0, 0] : Fin 3 → Nat) a + S1x64x64.size a ≤ S3x64x64.size a) (l : Fin 3) (hl : l.val = o)
    (k c : Fin 64) :
    View.ld x (Rect.unit (s := S3x64x64) ![o, 0, 0] S1x64x64.size inb) (ix3 (0 : Fin 1) k c) = x (ix3 l k c) := by
  refine congrArg x (funext fun a => Fin.ext ?_)
  match a with
  | ⟨0, _⟩ => show o + 1 * 0 = l.val; omega
  | ⟨1, _⟩ => show 0 + 1 * k.val = k.val; omega
  | ⟨2, _⟩ => show 0 + 1 * c.val = c.val; omega

/-- Row o of a [3, 64] array, loaded as a [1, 64] vector, reads at (0, c) the array at (o, c). -/
theorem ld_row (x : Vec Ideal S3x64 .f32) (o : Nat)
    (inb : ∀ a, (![o, 0] : Fin 2 → Nat) a + S1x64.size a ≤ S3x64.size a) (l : Fin 3) (hl : l.val = o) (c : Fin 64) :
    View.ld x (Rect.unit (s := S3x64) ![o, 0] S1x64.size inb) (ix2 (0 : Fin 1) c) = x (ix2 l c) := by
  refine congrArg x (funext fun a => Fin.ext ?_)
  match a with
  | ⟨0, _⟩ => show o + 1 * 0 = l.val; omega
  | ⟨1, _⟩ => show 0 + 1 * c.val = c.val; omega

theorem zeros2 : (![0, 0] : Fin 2 → Nat) = fun _ => 0 := funext fun a => by fin_cases a <;> rfl

/-! ## One dense layer at an entry -/

/-- The first layer before its positive part: 3 features against the whole 3 × 64 weight. -/
theorem affine_in_apply (a : FVec Ideal S6000x3 .f32) (w : Vec Ideal S3x64 .f32) (b : Vec Ideal S1x64 .f32)
    (p : Fin 6000) (c : Fin 64) :
    addf (matmul dot_S6000x3_S3x64_S6000x64_1_0_0_1_n_n none (truncf .bf16 a bitsLt_bf16_f32)
        (truncf .bf16 w bitsLt_bf16_f32) (constant S6000x64 .f32 0x00000000#32))
      (broadcastTo S6000x64 (shapeCast S1x64 (shapeCast S64 b shapeCasts_S1x64_S64) shapeCasts_S64_S1x64)
        broadcasts_S1x64_S6000x64) (ix2 p c)
      = affine (fun k c => w (ix2 k c)) (fun c => b (ix2 (0 : Fin 1) c)) (fun k => a (ix2 p k)) c :=
  congrArg₂ (· + ·)
    (PlainDot.matmul_zero_apply dot_S6000x3_S3x64_S6000x64_1_0_0_1_n_n rfl rfl rfl rfl rfl rfl rfl rfl none
      (truncf .bf16 a bitsLt_bf16_f32) (truncf .bf16 w bitsLt_bf16_f32) p c)
    (bias_apply b shapeCasts_S1x64_S64 shapeCasts_S64_S1x64 broadcasts_S1x64_S6000x64 p c)

/-- A hidden layer before its positive part: 64 features against one 64 × 64 slab. -/
theorem affine_hid_apply (a : FVec Ideal S6000x64 .f32) (w : Vec Ideal S1x64x64 .f32) (b : Vec Ideal S1x64 .f32)
    (p : Fin 6000) (c : Fin 64) :
    addf (matmul dot_S6000x64_S64x64_S6000x64_1_0_0_1_n_n none (truncf .bf16 a bitsLt_bf16_f32)
        (truncf .bf16 (shapeCast S64x64 w shapeCasts_S1x64x64_S64x64) bitsLt_bf16_f32)
        (constant S6000x64 .f32 0x00000000#32))
      (broadcastTo S6000x64 (shapeCast S1x64 (shapeCast S64 b shapeCasts_S1x64_S64) shapeCasts_S64_S1x64)
        broadcasts_S1x64_S6000x64) (ix2 p c)
      = affine (fun k c => w (ix3 (0 : Fin 1) k c)) (fun c => b (ix2 (0 : Fin 1) c)) (fun k => a (ix2 p k)) c := by
  refine (congrArg₂ (· + ·)
    (PlainDot.matmul_zero_apply dot_S6000x64_S64x64_S6000x64_1_0_0_1_n_n rfl rfl rfl rfl rfl rfl rfl rfl none
      (truncf .bf16 a bitsLt_bf16_f32) (truncf .bf16 (shapeCast S64x64 w shapeCasts_S1x64x64_S64x64) bitsLt_bf16_f32) p c)
    (bias_apply b shapeCasts_S1x64_S64 shapeCasts_S64_S1x64 broadcasts_S1x64_S6000x64 p c)).trans ?_
  refine congrArg (· + b (ix2 (0 : Fin 1) c)) (Finset.sum_congr rfl fun k _ => ?_)
  exact congrArg (a (ix2 p k) * ·) (shapeCast_1ab_ab_apply w shapeCasts_S1x64x64_S64x64 k c)

/-- The last layer: 64 features against the whole 64 × 4 weight. -/
theorem affine_out_apply (a : FVec Ideal S6000x64 .f32) (w : Vec Ideal S64x4 .f32) (b : Vec Ideal S1x4 .f32)
    (p : Fin 6000) (c : Fin 4) :
    addf (matmul dot_S6000x64_S64x4_S6000x4_1_0_0_1_n_n none (truncf .bf16 a bitsLt_bf16_f32)
        (truncf .bf16 w bitsLt_bf16_f32) (constant S6000x4 .f32 0x00000000#32))
      (broadcastTo S6000x4 (shapeCast S1x4 (shapeCast S4 b shapeCasts_S1x4_S4) shapeCasts_S4_S1x4)
        broadcasts_S1x4_S6000x4) (ix2 p c)
      = affine (fun k c => w (ix2 k c)) (fun c => b (ix2 (0 : Fin 1) c)) (fun k => a (ix2 p k)) c :=
  congrArg₂ (· + ·)
    (PlainDot.matmul_zero_apply dot_S6000x64_S64x4_S6000x4_1_0_0_1_n_n rfl rfl rfl rfl rfl rfl rfl rfl none
      (truncf .bf16 a bitsLt_bf16_f32) (truncf .bf16 w bitsLt_bf16_f32) p c)
    (bias_apply b shapeCasts_S1x4_S4 shapeCasts_S4_S1x4 broadcasts_S1x4_S6000x4 p c)

/-- The first layer with its positive part (the rows pass through a cast to their own shape first). -/
theorem layer_in_apply (v0 : Vec Ideal S6000x3 .f32) (w : Vec Ideal S3x64 .f32) (b : Vec Ideal S1x64 .f32)
    (p : Fin 6000) (c : Fin 64) :
    maximumf (addf (matmul dot_S6000x3_S3x64_S6000x64_1_0_0_1_n_n none
          (truncf .bf16 (shapeCast S6000x3 v0 shapeCasts_S6000x3_S6000x3) bitsLt_bf16_f32)
          (truncf .bf16 w bitsLt_bf16_f32) (constant S6000x64 .f32 0x00000000#32))
        (broadcastTo S6000x64 (shapeCast S1x64 (shapeCast S64 b shapeCasts_S1x64_S64) shapeCasts_S64_S1x64)
          broadcasts_S1x64_S6000x64))
      (broadcast S6000x64 (Scalar.ofBits (F := Ideal) .f32 0x00000000#32)) (ix2 p c)
      = relu (affine (fun k c => w (ix2 k c)) (fun c => b (ix2 (0 : Fin 1) c)) (fun k => v0 (ix2 p k))) c := by
  refine (relu_apply _ p c).trans (congrArg (max · 0) ?_)
  rw [shapeCast_self]
  exact affine_in_apply v0 w b p c

/-- A hidden layer with its positive part. -/
theorem layer_hid_apply (a : FVec Ideal S6000x64 .f32) (w : Vec Ideal S1x64x64 .f32) (b : Vec Ideal S1x64 .f32)
    (p : Fin 6000) (c : Fin 64) :
    maximumf (addf (matmul dot_S6000x64_S64x64_S6000x64_1_0_0_1_n_n none (truncf .bf16 a bitsLt_bf16_f32)
          (truncf .bf16 (shapeCast S64x64 w shapeCasts_S1x64x64_S64x64) bitsLt_bf16_f32)
          (constant S6000x64 .f32 0x00000000#32))
        (broadcastTo S6000x64 (shapeCast S1x64 (shapeCast S64 b shapeCasts_S1x64_S64) shapeCasts_S64_S1x64)
          broadcasts_S1x64_S6000x64))
      (broadcast S6000x64 (Scalar.ofBits (F := Ideal) .f32 0x00000000#32)) (ix2 p c)
      = relu (affine (fun k c => w (ix3 (0 : Fin 1) k c)) (fun c => b (ix2 (0 : Fin 1) c)) (fun k => a (ix2 p k))) c :=
  (relu_apply _ p c).trans (congrArg (max · 0) (affine_hid_apply a w b p c))

/-! ## The two payloads at an entry -/

/-- The first three layers, each with its positive part, at row p and feature c: given what each operand reads. -/
theorem pay2_of_eq (v0 : Vec Ideal S6000x3 .f32) (v3 : Vec Ideal S3x64 .f32) (v6 : Vec Ideal S1x64 .f32)
    (v13 : Vec Ideal S1x64x64 .f32) (v18 : Vec Ideal S1x64 .f32) (v25 : Vec Ideal S1x64x64 .f32)
    (v30 : Vec Ideal S1x64 .f32) (p : Fin 6000) (c : Fin 64)
    {r : Fin 3 → EReal} {Win : Fin 3 → Fin 64 → EReal} {bin : Fin 64 → EReal}
    {W0 : Fin 64 → Fin 64 → EReal} {b0 : Fin 64 → EReal} {W1 : Fin 64 → Fin 64 → EReal} {b1 : Fin 64 → EReal}
    (hr : ∀ k, v0 (ix2 p k) = r k) (hWin : ∀ k c, v3 (ix2 k c) = Win k c) (hbin : ∀ c, v6 (ix2 (0 : Fin 1) c) = bin c)
    (hW0 : ∀ k c, v13 (ix3 (0 : Fin 1) k c) = W0 k c) (hb0 : ∀ c, v18 (ix2 (0 : Fin 1) c) = b0 c)
    (hW1 : ∀ k c, v25 (ix3 (0 : Fin 1) k c) = W1 k c) (hb1 : ∀ c, v30 (ix2 (0 : Fin 1) c) = b1 c) :
    k0_pay2 (F := Ideal) v0 v3 v6 v13 v18 v25 v30 (ix2 p c)
      = relu (affine W1 b1 (relu (affine W0 b0 (relu (affine Win bin r))))) c := by
  obtain rfl : (fun k => v0 (ix2 p k)) = r := funext hr
  obtain rfl : (fun k c => v3 (ix2 k c)) = Win := funext fun k => funext fun c => hWin k c
  obtain rfl : (fun c => v6 (ix2 (0 : Fin 1) c)) = bin := funext hbin
  obtain rfl : (fun k c => v13 (ix3 (0 : Fin 1) k c)) = W0 := funext fun k => funext fun c => hW0 k c
  obtain rfl : (fun c => v18 (ix2 (0 : Fin 1) c)) = b0 := funext hb0
  obtain rfl : (fun k c => v25 (ix3 (0 : Fin 1) k c)) = W1 := funext fun k => funext fun c => hW1 k c
  obtain rfl : (fun c => v30 (ix2 (0 : Fin 1) c)) = b1 := funext hb1
  unfold k0_pay2
  refine (layer_hid_apply _ v25 v30 p c).trans ?_
  refine congrArg (fun h => relu (affine _ _ h) c) (funext fun k => ?_)
  refine (layer_hid_apply _ v13 v18 p k).trans ?_
  refine congrArg (fun h => relu (affine _ _ h) k) (funext fun j => ?_)
  exact layer_in_apply v0 v3 v6 p j

/-- The fourth layer with its positive part, the last layer, and the sum of channels q and 2 + q, at row p: given
    what each operand reads. -/
theorem pay1_of_eq (v36 : FVec Ideal S6000x64 .f32) (v37 : Vec Ideal S1x64x64 .f32) (v42 : Vec Ideal S1x64 .f32)
    (v49 : Vec Ideal S64x4 .f32) (v53 : Vec Ideal S1x4 .f32) (p : Fin 6000) (q : Fin 2)
    {h : Fin 64 → EReal} {W2 : Fin 64 → Fin 64 → EReal} {b2 : Fin 64 → EReal}
    {Wout : Fin 64 → Fin 4 → EReal} {bout : Fin 4 → EReal}
    (hh : ∀ k, v36 (ix2 p k) = h k) (hW2 : ∀ k c, v37 (ix3 (0 : Fin 1) k c) = W2 k c)
    (hb2 : ∀ c, v42 (ix2 (0 : Fin 1) c) = b2 c) (hWout : ∀ k c, v49 (ix2 k c) = Wout k c)
    (hbout : ∀ c, v53 (ix2 (0 : Fin 1) c) = bout c) :
    k0_pay1 (F := Ideal) v36 v37 v42 v49 v53 (ix2 p q)
      = affine Wout bout (relu (affine W2 b2 h)) ⟨q.val, by omega⟩
        + affine Wout bout (relu (affine W2 b2 h)) ⟨2 + q.val, by omega⟩ := by
  obtain rfl : (fun k => v36 (ix2 p k)) = h := funext hh
  obtain rfl : (fun k c => v37 (ix3 (0 : Fin 1) k c)) = W2 := funext fun k => funext fun c => hW2 k c
  obtain rfl : (fun c => v42 (ix2 (0 : Fin 1) c)) = b2 := funext hb2
  obtain rfl : (fun k c => v49 (ix2 k c)) = Wout := funext fun k => funext fun c => hWout k c
  obtain rfl : (fun c => v53 (ix2 (0 : Fin 1) c)) = bout := funext hbout
  unfold k0_pay1
  refine (addf_apply _ _ _).trans (congrArg₂ (· + ·) ?_ ?_)
  · refine (slice2_axis1_apply 0 _ slices_S6000x4_o0_0_S6000x2 p q ⟨q.val, by omega⟩ (Nat.zero_add _).symm).trans ?_
    refine (affine_out_apply _ v49 v53 p _).trans ?_
    exact congrArg (fun g => affine _ _ g _) (funext fun k => layer_hid_apply v36 v37 v42 p k)
  · refine (slice2_axis1_apply 2 _ slices_S6000x4_o0_2_S6000x2 p q ⟨2 + q.val, by omega⟩ rfl).trans ?_
    refine (affine_out_apply _ v49 v53 p _).trans ?_
    exact congrArg (fun g => affine _ _ g _) (funext fun k => layer_hid_apply v36 v37 v42 p k)

/-! ## What one grid point writes -/

/-- Entry (p, q) of the block a grid point writes is the value of row p of its block of features for mode q: the
    weights and biases are read whole, slab l of the hidden weights and row l of the hidden biases by layer l. -/
theorem out_apply (x0 : Vec Ideal S6000x3 .f32) (x1 : Vec Ideal S3x64 .f32) (x2 : Vec Ideal S1x64 .f32)
    (x3 : Vec Ideal S3x64x64 .f32) (x4 : Vec Ideal S3x64 .f32) (x5 : Vec Ideal S64x4 .f32) (x6 : Vec Ideal S1x4 .f32)
    (p : Fin 6000) (q : Fin 2) :
    Gen.out0_7 (F := Ideal) x0 x1 x2 x3 x4 x5 x6 (ix2 p q)
      = Cert.Mlp.valsRow (fun k c => x1 (ix2 k c)) (fun c => x2 (ix2 (0 : Fin 1) c)) (fun l k c => x3 (ix3 l k c))
          (fun l c => x4 (ix2 l c)) (fun k c => x5 (ix2 k c)) (fun c => x6 (ix2 (0 : Fin 1) c))
          (fun k => x0 (ix2 p k)) q := by
  unfold Gen.out0_7
  rw [View.canon_unit_zero zeros2]
  simp only [View.ld_unit_zero (S := S6000x3) zeros2, View.ld_unit_zero (S := S3x64) zeros2,
    View.ld_unit_zero (S := S1x64) zeros2, View.ld_unit_zero (S := S64x4) zeros2, View.ld_unit_zero (S := S1x4) zeros2]
  exact pay1_of_eq _ _ _ x5 x6 p q
    (fun k => pay2_of_eq x0 x1 x2 _ _ _ _ p k (fun _ => rfl) (fun _ _ => rfl) (fun _ => rfl)
      (fun k c => ld_slab x3 0 _ 0 rfl k c) (fun c => ld_row x4 0 _ 0 rfl c)
      (fun k c => ld_slab x3 1 _ 1 rfl k c) (fun c => ld_row x4 1 _ 1 rfl c))
    (fun k c => ld_slab x3 2 _ 2 rfl k c) (fun c => ld_row x4 2 _ 2 rfl c) (fun _ _ => rfl) (fun _ => rfl)

end Cert.KernelIdeal.Block

end
-- ==== Proof.KernelArray.lean ====
import proofs.«132408_j11347303596498_2_alg».proof.Proof.Gen.KernelIdeal.Frame
import proofs.«132408_j11347303596498_2_alg».proof.Proof.MlpSpec
import proofs.«132408_j11347303596498_2_alg».proof.Proof.KernelBlock
import Idealize.ShloMosaic.Lib.StableHlo.Run
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Arr

open Cert.KernelIdeal Cert.KernelIdeal.Gen

variable (m : (ℓ : Loc nD τ sig) → Buf (Elt Ideal) ℓ) (ρ : Dev nD → PrngReg)

/-! ## What the region finds in the three buffers the host lines before it wrote -/

/-- The feature matrix the region reads is the input array re-laid as 132000 rows of 3. -/
theorem V_x (c : Dev nD) : (V m c main_call0_v0 : S132000x3.Idx → Elt Ideal .f32)
    = shapeCast S132000x3 (m ((c : Thread nD τ).loc main_arg0)) shapeCasts_S6000x22x3_S132000x3 := by
  show StableHlo.after hostOps0 (fun b => m (c, b)) (Proc.devRef .tc main_call0_v0) = _
  after_results
  rfl

/-- The first bias as the region reads it: the 64-vector as one row. -/
theorem V_bin (c : Dev nD) : (V m c main_call0_v1 : S1x64.Idx → Elt Ideal .f32)
    = shapeCast S1x64 (m ((c : Thread nD τ).loc main_arg2)) shapeCasts_S64_S1x64 := by
  show StableHlo.after hostOps0 (fun b => m (c, b)) (Proc.devRef .tc main_call0_v1) = _
  after_results
  rfl

/-- The last bias as the region reads it: the 4-vector as one row. -/
theorem V_bout (c : Dev nD) : (V m c main_call0_v2 : S1x4.Idx → Elt Ideal .f32)
    = shapeCast S1x4 (m ((c : Thread nD τ).loc main_arg6)) shapeCasts_S4_S1x4 := by
  show StableHlo.after hostOps0 (fun b => m (c, b)) (Proc.devRef .tc main_call0_v2) = _
  after_results
  rfl

/-! ## The blocks each grid point reads -/

/-- The printed index maps over the 22 grid points: the feature rows and the value rows move one block per point,
    every weight and bias window stays on its one block. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 22 := by
  have h : t.val < cfg0.N := t.isLt
  have hN : cfg0.N = 22 := N_0
  omega

/-- Point t's block of features is rows 6000·t … 6000·t + 5999 of the feature matrix. -/
theorem iblk0_apply (c : Dev nD) (t : Fin cfg0.N) (p : Fin 6000) (k : Fin 3) :
    (iblk m c 0 t : Vec Ideal S6000x3 .f32) (ix2 p k)
      = (V m c main_call0_v0 : S132000x3.Idx → Elt Ideal .f32) (ix2 ⟨6000 * t.val + p.val, by have := t_lt t; omega⟩ k) := by
  obtain ⟨e0, e1, -⟩ := idx_facts t
  unfold iblk
  rw [View.read_apply]
  show V m c main_call0_v0 _ = V m c main_call0_v0 _
  congr 1
  funext a
  apply Fin.ext
  match a with
  | ⟨0, _⟩ => show win0_0.index t (0 : Fin 2) * 6000 + 1 * p.val = 6000 * t.val + p.val; rw [e0]; omega
  | ⟨1, _⟩ => show win0_0.index t (1 : Fin 2) * 3 + 1 * k.val = k.val; rw [e1]; omega

/-- Every weight and bias window is its whole array at every point. -/
theorem iblk1_eq (c : Dev nD) (t : Fin cfg0.N) : (iblk m c 1 t : Vec Ideal S3x64 .f32) = V m c main_arg1 := by
  obtain ⟨-, -, -, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 3 + 1 * (y 0).val = (y 0).val; rw [e0]; omega
  | ⟨1, _⟩ => show win0_1.index t (1 : Fin 2) * 64 + 1 * (y 1).val = (y 1).val; rw [e1]; omega

theorem iblk2_eq (c : Dev nD) (t : Fin cfg0.N) : (iblk m c 2 t : Vec Ideal S1x64 .f32) = V m c main_call0_v1 := by
  obtain ⟨-, -, -, -, -, -, e0, e1, -⟩ := idx_facts t
  funext y
  unfold iblk
  rw [View.read_apply]
  show V m c main_call0_v1 _ = V m c main_call0_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem iblk3_eq (c : Dev nD) (t : Fin cfg0.N) : (iblk m c 3 t : Vec Ideal S3x64x64 .f32) = V m c main_arg3 := by
  obtain ⟨-, -, -, -, -, -, -, -, e0, e1, e2, -⟩ := idx_facts t
  funext y
  unfold iblk
  rw [View.read_apply]
  show V m c main_arg3 _ = V m c main_arg3 y
  congr 1
  funext a
  apply Fin.ext
  match a with
  | ⟨0, _⟩ => show win0_3.index t (0 : Fin 3) * 3 + 1 * (y 0).val = (y 0).val; rw [e0]; omega
  | ⟨1, _⟩ => show win0_3.index t (1 : Fin 3) * 64 + 1 * (y 1).val = (y 1).val; rw [e1]; omega
  | ⟨2, _⟩ => show win0_3.index t (2 : Fin 3) * 64 + 1 * (y 2).val = (y 2).val; rw [e2]; omega

theorem iblk4_eq (c : Dev nD) (t : Fin cfg0.N) : (iblk m c 4 t : Vec Ideal S3x64 .f32) = V m c main_arg4 := by
  obtain ⟨-, -, -, -, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 3 + 1 * (y 0).val = (y 0).val; rw [e0]; omega
  | ⟨1, _⟩ => show win0_4.index t (1 : Fin 2) * 64 + 1 * (y 1).val = (y 1).val; rw [e1]; omega

theorem iblk5_eq (c : Dev nD) (t : Fin cfg0.N) : (iblk m c 5 t : Vec Ideal S64x4 .f32) = V m c main_arg5 := by
  obtain ⟨-, -, -, -, -, -, -, -, -, -, -, -, -, e0, e1, -⟩ := idx_facts t
  funext y
  unfold iblk
  rw [View.read_apply]
  show V m c main_arg5 _ = V m c main_arg5 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 4 + 1 * (y 1).val = (y 1).val; rw [e1]; omega

theorem iblk6_eq (c : Dev nD) (t : Fin cfg0.N) : (iblk m c 6 t : Vec Ideal S1x4 .f32) = V m c main_call0_v2 := by
  obtain ⟨-, -, -, -, -, -, -, -, -, -, -, -, -, -, -, e0, e1⟩ := idx_facts t
  funext y
  unfold iblk
  rw [View.read_apply]
  show V m c main_call0_v2 _ = V m c main_call0_v2 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 4 + 1 * (y 1).val = (y 1).val; rw [e1]; omega

/-! ## The value array -/

/-- The 132000 × 2 array of per-row values, as a function of the launch memory. -/
def G (c : Dev nD) : S132000x2.Idx → Elt Ideal .f32 :=
  Cert.Mlp.vals (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (shapeCast S132000x3 (m ((c : Thread nD τ).loc main_arg0)) shapeCasts_S6000x22x3_S132000x3)

/-- What point t leaves in the output's staging buffer, entry by entry: the values of rows 6000·t + p. -/
theorem block_apply (c : Dev nD) (t : Fin cfg0.N) (p : Fin 6000) (q : Fin 2) :
    out0_7 (F := Ideal) (iblk m c 0 t) (iblk m c 1 t) (iblk m c 2 t) (iblk m c 3 t) (iblk m c 4 t) (iblk m c 5 t) (iblk m c 6 t) (ix2 p q)
      = G m c (ix2 ⟨6000 * t.val + p.val, by have := t_lt t; omega⟩ q) := by
  refine (Cert.KernelIdeal.Block.out_apply (iblk m c 0 t) (iblk m c 1 t) (iblk m c 2 t) (iblk m c 3 t) (iblk m c 4 t) (iblk m c 5 t) (iblk m c 6 t) p q).trans ?_
  rw [iblk1_eq, iblk2_eq, iblk3_eq, iblk4_eq, iblk5_eq, iblk6_eq, V_bin, V_bout, V_main_arg1, V_main_arg3, V_main_arg4, V_main_arg5]
  unfold G
  rw [Cert.Mlp.vals_ix2]
  unfold Cert.Mlp.valsAt
  congr 1
  · funext c'; exact shapeCast_a_1a_apply _ shapeCasts_S64_S1x64 (0 : Fin 1) c'
  · funext c'; exact shapeCast_a_1a_apply _ shapeCasts_S4_S1x4 (0 : Fin 1) c'
  · funext k; rw [iblk0_apply, V_x]

/-- The same as an equation of blocks. -/
theorem block_fun (c : Dev nD) (t : Fin cfg0.N) :
    (out0_7 (F := Ideal) (iblk m c 0 t) (iblk m c 1 t) (iblk m c 2 t) (iblk m c 3 t) (iblk m c 4 t) (iblk m c 5 t) (iblk m c 6 t) : Vec Ideal S6000x2 .f32)
      = fun y : S6000x2.Idx => G m c (ix2 ⟨6000 * t.val + (y 0).val, by have := t_lt t; have := idx2_lt0 y; omega⟩ (y 1)) := by
  funext y
  obtain ⟨p, q, rfl⟩ : ∃ (p : Fin 6000) (q : Fin 2), y = ix2 p q := ⟨y 0, y 1, eq_ix2 y⟩
  exact block_apply m c t p q

/-- An entry of the value array is in point t's block iff its row is among rows 6000·t … 6000·t + 5999. -/
theorem mem_blk (t : Fin cfg0.N) (i : S132000x2.Idx) :
    i ∈ ((cfg0.win 7).blk t).view.set ↔ ∀ a : Fin 2, win0_7.index t a * S6000x2.size a ≤ (i a).val ∧ (i a).val < win0_7.index t a * S6000x2.size a + S6000x2.size a := by
  show i ∈ ((View.whole main_call0_v3).slice (win0_7.rect t)).set ↔ _
  rw [View.set_slice_whole, Rect.mem_set_unit]
  exact Iff.rfl

/-- WHAT POINT t WRITES BACK is block t of the value array. -/
theorem flushed_eq (c : Dev nD) (t : Fin cfg0.N) :
    (dats m 0 c).flushed 7 t = ((cfg0.win 7).blk t).view.read (Elt Ideal) (G m c) := by
  obtain ⟨-, -, e0, e1, -⟩ := idx_facts t
  show (cfg0.win 7).cut (grid0.coords t) ((dats m 0 c).after 7 t) = _
  rw [after0_7, block_fun]
  funext y
  rw [View.read_apply]
  show G m c _ = G m c _
  congr 1
  funext a
  apply Fin.ext
  match a with
  | ⟨0, _⟩ => show 6000 * t.val + (y 0).val = win0_7.index t (0 : Fin 2) * 6000 + 1 * (y 0).val; rw [e0]; omega
  | ⟨1, _⟩ => show (y 1).val = win0_7.index t (1 : Fin 2) * 2 + 1 * (y 1).val; rw [e1]; omega

/-- The 22 blocks of 6000 rows tile the 132000 rows: row r is in block r / 6000. -/
theorem cover (i : S132000x2.Idx) :
    ∃ t : Fin cfg0.N, (cfg0.win 7).flush t = true ∧ i ∈ ((cfg0.win 7).blk t).view.set := by
  have hi0 : (i 0).val < 132000 := idx2_lt0 i
  have hi1 : (i 1).val < 2 := idx2_lt1 i
  have hN : cfg0.N = 22 := N_0
  have ht : (i 0).val / 6000 < cfg0.N := by rw [hN]; omega
  obtain ⟨-, -, e0, e1, -⟩ := idx_facts ⟨(i 0).val / 6000, ht⟩
  refine ⟨⟨(i 0).val / 6000, ht⟩, flush0_7 _, ?_⟩
  rw [mem_blk]
  intro a
  match a with
  | ⟨0, _⟩ =>
    show win0_7.index ⟨(i 0).val / 6000, ht⟩ (0 : Fin 2) * 6000 ≤ (i 0).val ∧ (i 0).val < win0_7.index ⟨(i 0).val / 6000, ht⟩ (0 : Fin 2) * 6000 + 6000
    rw [e0]
    show (i 0).val / 6000 * 6000 ≤ (i 0).val ∧ (i 0).val < (i 0).val / 6000 * 6000 + 6000
    omega
  | ⟨1, _⟩ =>
    show win0_7.index ⟨(i 0).val / 6000, ht⟩ (1 : Fin 2) * 2 ≤ (i 1).val ∧ (i 1).val < win0_7.index ⟨(i 0).val / 6000, ht⟩ (1 : Fin 2) * 2 + 2
    rw [e1]
    omega

/-- THE VALUE ARRAY after the region: the per-row values of all 132000 rows. -/
theorem final (c : Dev nD) : (dats m 0 c).arrAt 7 cfg0.N = G m c :=
  (dats m 0 c).arrAt_eq_of_cover 7 (G m c) (fun t _ => flushed_eq m c t) cover

end Cert.KernelIdeal.Arr

end
-- ==== Proof.KernelTail.lean ====
/-
  The host lines after the region, as one function.

  After the region the program builds, from the 2 × 132000 integer table coo and the 132000 × 2 value array, a list of
  264000 updates and adds them into a zero 12000 × 12000 array: update j < 132000 carries value (j, 0) and targets
  (2·coo(0, j) + 0, 2·coo(1, j) + 0); update 132000 + j carries value (j, 1) and targets (2·coo(0, j) + 1,
  2·coo(1, j) + 1); a negative target coordinate has 12000 added to it first.
-/
import proofs.«132408_j11347303596498_2_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

/-- Row r of the table as a vector of 132000 integers. -/
def rowOf0 (coo : IVec S2x132000 32) : IVec S132000 32 :=
  shapeCast S132000 (extractStridedSlice S1x132000 ![0, 0] coo slices_S2x132000_S1x132000_0_0) shapeCasts_S1x132000_S132000
def rowOf1 (coo : IVec S2x132000 32) : IVec S132000 32 :=
  shapeCast S132000 (extractStridedSlice S1x132000 ![1, 0] coo slices_S2x132000_S1x132000_1_0) shapeCasts_S1x132000_S132000

/-- 2·v + mj, entry by entry. -/
def twice (v : IVec S132000 32) (mj : BitVec 32) : IVec S132000 32 :=
  addi (muli v (broadcastInDim S132000 ![] bcast_S_S132000 (constantI S_ 32 2#32))) (broadcastInDim S132000 ![] bcast_S_S132000 (constantI S_ 32 mj))

/-- The two halves of a target coordinate list joined end to end. -/
def joined (v : IVec S132000 32) : IVec S264000 32 :=
  concatenate S264000 0 [⟨S132000, twice v 0#32⟩, ⟨S132000, twice v 1#32⟩] concatenates_S132000_S132000_S264000_d0

/-- A negative coordinate has 12000 added. -/
def wrapped (x : IVec S264000 32) : IVec S264000 32 :=
  select (cmpi .slt x (broadcastInDim S264000 ![] bcast_S_S264000 (constantI S_ 32 0#32)))
    (addi x (broadcastInDim S264000 ![] bcast_S_S264000 (constantI S_ 32 12000#32))) x

/-- The 264000 × 2 table of targets. -/
def targets (coo : IVec S2x132000 32) : IVec S264000x2 32 :=
  concatenate S264000x2 1
    [⟨S264000x1, broadcastInDim S264000x1 ![0] bcast_S264000_S264000x1_0 (wrapped (joined (rowOf0 coo)))⟩,
     ⟨S264000x1, broadcastInDim S264000x1 ![0] bcast_S264000_S264000x1_0 (wrapped (joined (rowOf1 coo)))⟩]
    concatenates_S264000x1_S264000x1_S264000x2_d1

/-- The 264000 update values: column 0 of the value array, then column 1. -/
def updates (v : FVec F S132000x2 .f32) : FVec F S264000 .f32 :=
  concatenate S264000 0
    [⟨S132000, shapeCast S132000 (extractStridedSlice S132000x1 ![0, 0] v slices_S132000x2_S132000x1_0_0) shapeCasts_S132000x1_S132000⟩,
     ⟨S132000, shapeCast S132000 (extractStridedSlice S132000x1 ![0, 1] v slices_S132000x2_S132000x1_0_1) shapeCasts_S132000x1_S132000⟩]
    concatenates_S132000_S132000_S264000_d0

/-- The result array of the program, from the table and the value array. -/
def result (coo : IVec S2x132000 32) (v : FVec F S132000x2 .f32) : FVec F S12000x12000 .f32 :=
  Host.scatterAdd scatter_S12000x12000_S264000x2_S264000_n_01_01_1
    (broadcastInDim S12000x12000 ![] bcast_S_S12000x12000 (constant S_ .f32 0x00000000#32)) (targets coo) (updates v)

end Cert.KernelIdeal.Tail

end
-- ==== Proof.KernelTailRun.lean ====
/-
  The host lines after the region compute the function `Tail.result`: read off the 59 operations one by one.
-/
import proofs.«132408_j11347303596498_2_alg».proof.Proof.KernelTail
import Idealize.ShloMosaic.Lib.StableHlo.Run

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

set_option maxRecDepth 8192 in
set_option maxHeartbeats 4000000 in
/-- The lines after the region, run from any contents W, leave `result` of the table and the value array as W has them
    in the result buffer. -/
theorem after_eq (W : Valuation τ sig (Elt F)) :
    StableHlo.after (hostOps1 (F := F)) W (Proc.devRef .tc main_v0)
      = result (W (Proc.devRef .tc main_arg7)) (W (Proc.devRef .tc main_call0_v3)) := by
  unfold result targets updates wrapped joined twice rowOf0 rowOf1
  simp only [hostOps1, TRef.nullary, TRef.unary, TRef.binary, TRef.ternary, TRef.reshape, TRef.toBuf, TRef.ofBuf, cast_eq]
  after_results_simp
  -- the buffers read inside the joined pairs
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- what is left differs only in the spelling of a re-laid vector's type: both sides are the same function
  rfl

end Cert.KernelIdeal.Tail

end
-- ==== Proof.KernelRun.lean ====
/-
  The idealized kernel program's run, read: its result array is `Tail.result` of the integer table and the value array
  of the specification, and its arguments end unchanged.
-/
import proofs.«132408_j11347303596498_2_alg».proof.Proof.KernelArray
import proofs.«132408_j11347303596498_2_alg».proof.Proof.KernelTailRun

noncomputable section

open Idealize.ShloMosaic Idealize.ShloMosaic.TcCoe Idealize.SL.Sem Idealize.ShloMosaic.StableHlo
open Idealize.ShloMosaic.Pipeline (Dat)

namespace Cert.KernelIdeal.Run

open Cert.KernelIdeal Cert.KernelIdeal.Gen

variable (m : (ℓ : Loc nD τ sig) → Buf (Elt Ideal) ℓ) (ρ : Dev nD → PrngReg)

/-- After the lines that follow the region, the result buffer holds `Tail.result` of the table as launched and of the
    value array the region left. -/
theorem result_eq (c : Dev nD) :
    Pipeline.afterTail₀ cfgs (dats m) 0 (V0 m) [hostOps1] c main_v0
      = Tail.result (F := Ideal) (m ((c : Thread nD τ).loc main_arg7)) (Arr.G m c) := by
  have h7 : Pipeline.withArrays spec0 c (V0 m c) (fun w => (dats m 0 c).arrAt w cfg0.N) (Proc.devRef .tc main_arg7)
      = m ((c : Thread nD τ).loc main_arg7) :=
    (Pipeline.withArrays_of_ne _ c (V0 m c) _ main_arg7 (by exact (by decide : ∀ w, Pipeline.arrRef spec0 w ≠ main_arg7))).trans
      (V_main_arg7 m c)
  have hv : Pipeline.withArrays spec0 c (V0 m c) (fun w => (dats m 0 c).arrAt w cfg0.N) (Proc.devRef .tc main_call0_v3)
      = Arr.G m c :=
    (Pipeline.withArrays_arr spec0 launch0.win.arr_inj c (V0 m c) (fun w => (dats m 0 c).arrAt w cfg0.N) 7).trans (Arr.final m c)
  unfold Pipeline.afterTail₀
  show StableHlo.after hostOps1 (Pipeline.withArrays spec0 c (V0 m c) (fun w => (dats m 0 c).arrAt w cfg0.N)) (Proc.devRef .tc main_v0) = _
  rw [Tail.after_eq, h7, hv]

/-- The run: every weakly fair execution terminates with the result array at `Tail.result` and the arguments unchanged. -/
theorem run : θ_run defs (onTc (τ := τ) (main (F := Ideal))) ⟨m, fun _ => 0, ρ⟩ (fun r => ∀ c : Dev nD,
      r.2.mem ((c.tc : Thread nD τ).loc main_v0) = Tail.result (F := Ideal) (m ((c : Thread nD τ).loc main_arg7)) (Arr.G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.LibTableRead.lean ====
/-
  Reading small integer and float tables at an index.

  The index pairs of a scatter are assembled from vectors: two vectors of length n joined end to end into one of
  length n + n; a vector of length n turned into an n × 1 column; two columns set side by side into an n × 2 table;
  a row of a 2 × n table or a column of an n × 2 table taken out as a vector; a scalar repeated everywhere. Each lemma
  says which entry of the parts an entry of the whole is.
-/
import Idealize.ShloMosaic.Lib.ValueIdx
import Idealize.ShloMosaic.Lib.ValueLayout
import Idealize.ShloMosaic.Lib.Pipeline.Value

namespace Idealize.ShloMosaic.TableRead

open Idealize.ShloMosaic Idealize.ShloMosaic.ValueIdx

variable {α : Type} {n : Nat}

/-- Two vectors of length n joined end to end: an entry among the first n is the first vector's. -/
theorem join_left (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.castAdd n j)) = A (ix1 j) :=
  concatenate_pair_apply_left 0 A B h (ix1 (Fin.castAdd n j)) rfl (ix1 j) (fun b => by
    match b with
    | ⟨0, _⟩ => rfl)

/-- Two vectors of length n joined end to end: entry n + j is the second vector's entry j. -/
theorem join_right (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.natAdd n j)) = B (ix1 j) :=
  concatenate_pair_apply_right 0 A B h (ix1 (Fin.natAdd n j)) rfl rfl (ix1 j)
    (fun b hb => by
      match b with
      | ⟨0, _⟩ => exact absurd rfl hb)
    (by show j.val + n = n + j.val; omega)

/-- A vector turned into a column: entry (j, ·) is the vector's entry j. -/
theorem column_apply (v : (⟨1, ![n]⟩ : Shape).Idx → α)
    (h : (⟨1, ![n]⟩ : Shape).BroadcastsInDim ⟨2, ![n, 1]⟩ ![0]) (j : Fin n) (u : Fin 1) :
    broadcastInDim ⟨2, ![n, 1]⟩ ![0] h v (ix2 j u) = v (ix1 j) :=
  broadcastInDim_apply ![0] h v (ix2 j u) (ix1 j) (fun a => by
    match a with
    | ⟨0, _⟩ =>
      show j.val = if n = 1 then 0 else j.val
      split
      · have := j.isLt; omega
      · rfl)

/-- Two columns side by side: column 0 of the table is the first. -/
theorem beside_left (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (0 : Fin 2)) = A (ix2 j (0 : Fin 1)) :=
  concatenate_pair_apply_left 1 A B h (ix2 j (0 : Fin 2)) rfl (ix2 j (0 : Fin 1)) (fun b => by
    match b with
    | ⟨0, _⟩ => rfl
    | ⟨1, _⟩ => rfl)

/-- Two columns side by side: column 1 of the table is the second. -/
theorem beside_right (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (1 : Fin 2)) = B (ix2 j (0 : Fin 1)) :=
  concatenate_pair_apply_right 1 A B h (ix2 j (1 : Fin 2)) rfl rfl (ix2 j (0 : Fin 1))
    (fun b hb => by
      match b with
      | ⟨0, _⟩ => rfl
      | ⟨1, _⟩ => exact absurd rfl hb)
    rfl

/-- Row r of a 2 × n table taken out as a vector. -/
theorem row_apply (r : Nat) (X : (⟨2, ![2, n]⟩ : Shape).Idx → α)
    (h : (⟨2, ![2, n]⟩ : Shape).Slices ![r, 0] ⟨2, ![1, n]⟩) (h' : (⟨2, ![1, n]⟩ : Shape).ShapeCasts ⟨1, ![n]⟩)
    (j : Fin n) (k : Fin 2) (hk : k.val = r) :
    shapeCast ⟨1, ![n]⟩ (extractStridedSlice ⟨2, ![1, n]⟩ ![r, 0] X h) h' (ix1 j) = X (ix2 k j) :=
  (shapeCast_1a_a_apply _ h' j).trans (slice2_axis0_apply r X h (0 : Fin 1) j k (by rw [hk]; rfl))

/-- Column q of an n × 2 table taken out as a vector. -/
theorem col_apply (q : Nat) (X : (⟨2, ![n, 2]⟩ : Shape).Idx → α)
    (h : (⟨2, ![n, 2]⟩ : Shape).Slices ![0, q] ⟨2, ![n, 1]⟩) (h' : (⟨2, ![n, 1]⟩ : Shape).ShapeCasts ⟨1, ![n]⟩)
    (j : Fin n) (k : Fin 2) (hk : k.val = q) :
    shapeCast ⟨1, ![n]⟩ (extractStridedSlice ⟨2, ![n, 1]⟩ ![0, q] X h) h' (ix1 j) = X (ix2 j k) :=
  (shapeCast_apply _ h' (ix1 j) (ix2 j (0 : Fin 1)) (by
      rw [Shape.rowMajor_val_two, Shape.rowMajor_val_one]
      show j.val * 1 + 0 = j.val
      omega)).trans
    (slice2_axis1_apply q X h j (0 : Fin 1) k (by rw [hk]; rfl))

/-- A scalar repeated over a whole shape reads as that scalar everywhere. -/
theorem splat_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply ![] h x i ix0 (fun a => a.elim0)

end Idealize.ShloMosaic.TableRead
-- ==== Proof.ScatterSpec.lean ====
/-
  The target coordinate of one update, as a scalar.

  Both programs turn a table entry v and a mode mj into the array coordinate 2·v + mj (32-bit wrap-around arithmetic)
  and, when that is negative as a signed number, add 12000 to it.
-/
import Idealize.ShloMosaic.Lib.ValueIdx

namespace Cert.Scatter

open Idealize.ShloMosaic

/-- 2·v + mj, with 12000 added when negative. -/
def tgt (v mj : BitVec 32) : BitVec 32 :=
  Scalar.select (IntOp.cmpi .slt (IntOp.addi (IntOp.muli v 2#32) mj) 0#32)
    (IntOp.addi (IntOp.addi (IntOp.muli v 2#32) mj) 12000#32) (IntOp.addi (IntOp.muli v 2#32) mj)

end Cert.Scatter
-- ==== Proof.KernelTargets.lean ====
/-
  The kernel program's update list, entry by entry.

  Update j < 132000 targets (tgt coo(0, j) 0, tgt coo(1, j) 0) and carries value (j, 0); update 132000 + j targets
  (tgt coo(0, j) 1, tgt coo(1, j) 1) and carries value (j, 1), where tgt v mj is 2·v + mj with 12000 added when negative.
-/
import proofs.«132408_j11347303596498_2_alg».proof.Proof.KernelTail
import proofs.«132408_j11347303596498_2_alg».proof.Proof.LibTableRead
import proofs.«132408_j11347303596498_2_alg».proof.Proof.ScatterSpec

noncomputable section

open Idealize.ShloMosaic Idealize.ShloMosaic.ValueIdx Idealize.ShloMosaic.TableRead

namespace Cert.KernelIdeal.Tail

open Cert.KernelIdeal Cert.KernelIdeal.Gen Cert.Scatter

variable {F : FTy → Type} [FloatOps F]

theorem rowOf0_apply (coo : IVec S2x132000 32) (j : Fin 132000) : rowOf0 coo (ix1 j) = coo (ix2 (0 : Fin 2) j) := by
  unfold rowOf0
  exact row_apply 0 coo slices_S2x132000_S1x132000_0_0 shapeCasts_S1x132000_S132000 j 0 rfl

theorem rowOf1_apply (coo : IVec S2x132000 32) (j : Fin 132000) : rowOf1 coo (ix1 j) = coo (ix2 (1 : Fin 2) j) := by
  unfold rowOf1
  exact row_apply 1 coo slices_S2x132000_S1x132000_1_0 shapeCasts_S1x132000_S132000 j 1 rfl

theorem joined_left (v : IVec S132000 32) (j : Fin 132000) :
    joined v (ix1 (Fin.castAdd 132000 j)) = IntOp.addi (IntOp.muli (v (ix1 j)) 2#32) 0#32 := by
  unfold joined
  exact (join_left _ _ concatenates_S132000_S132000_S264000_d0 j).trans rfl

theorem joined_right (v : IVec S132000 32) (j : Fin 132000) :
    joined v (ix1 (Fin.natAdd 132000 j)) = IntOp.addi (IntOp.muli (v (ix1 j)) 2#32) 1#32 := by
  unfold joined
  exact (join_right _ _ concatenates_S132000_S132000_S264000_d0 j).trans rfl

theorem wrapped_apply (x : IVec S264000 32) (J : Fin 264000) :
    wrapped x (ix1 J) = Scalar.select (IntOp.cmpi .slt (x (ix1 J)) 0#32) (IntOp.addi (x (ix1 J)) 12000#32) (x (ix1 J)) := rfl

theorem targets_col0 (coo : IVec S2x132000 32) (J : Fin 264000) :
    targets coo (ix2 J (0 : Fin 2)) = wrapped (joined (rowOf0 coo)) (ix1 J) := by
  unfold targets
  exact (beside_left _ _ concatenates_S264000x1_S264000x1_S264000x2_d1 J).trans (column_apply _ bcast_S264000_S264000x1_0 J 0)

theorem targets_col1 (coo : IVec S2x132000 32) (J : Fin 264000) :
    targets coo (ix2 J (1 : Fin 2)) = wrapped (joined (rowOf1 coo)) (ix1 J) := by
  unfold targets
  exact (beside_right _ _ concatenates_S264000x1_S264000x1_S264000x2_d1 J).trans (column_apply _ bcast_S264000_S264000x1_0 J 0)

/-- The first 132000 updates target (tgt coo(0, j) 0, tgt coo(1, j) 0). -/
theorem targets_left (coo : IVec S2x132000 32) (j : Fin 132000) (a : Fin 2) :
    targets coo (ix2 (Fin.castAdd 132000 j) a) = tgt (coo (ix2 a j)) 0#32 := by
  have h0 : targets coo (ix2 (Fin.castAdd 132000 j) (0 : Fin 2)) = tgt (coo (ix2 (0 : Fin 2) j)) 0#32 := by
    rw [targets_col0, wrapped_apply, joined_left, rowOf0_apply]; rfl
  have h1 : targets coo (ix2 (Fin.castAdd 132000 j) (1 : Fin 2)) = tgt (coo (ix2 (1 : Fin 2) j)) 0#32 := by
    rw [targets_col1, wrapped_apply, joined_left, rowOf1_apply]; rfl
  match a with
  | ⟨0, _⟩ => exact h0
  | ⟨1, _⟩ => exact h1

/-- The last 132000 updates target (tgt coo(0, j) 1, tgt coo(1, j) 1). -/
theorem targets_right (coo : IVec S2x132000 32) (j : Fin 132000) (a : Fin 2) :
    targets coo (ix2 (Fin.natAdd 132000 j) a) = tgt (coo (ix2 a j)) 1#32 := by
  have h0 : targets coo (ix2 (Fin.natAdd 132000 j) (0 : Fin 2)) = tgt (coo (ix2 (0 : Fin 2) j)) 1#32 := by
    rw [targets_col0, wrapped_apply, joined_right, rowOf0_apply]; rfl
  have h1 : targets coo (ix2 (Fin.natAdd 132000 j) (1 : Fin 2)) = tgt (coo (ix2 (1 : Fin 2) j)) 1#32 := by
    rw [targets_col1, wrapped_apply, joined_right, rowOf1_apply]; rfl
  match a with
  | ⟨0, _⟩ => exact h0
  | ⟨1, _⟩ => exact h1

/-- The first 132000 updates carry column 0 of the value array. -/
theorem updates_left (v : FVec F S132000x2 .f32) (j : Fin 132000) :
    updates v (ix1 (Fin.castAdd 132000 j)) = v (ix2 j (0 : Fin 2)) := by
  unfold updates
  exact (join_left _ _ concatenates_S132000_S132000_S264000_d0 j).trans
    (col_apply 0 v slices_S132000x2_S132000x1_0_0 shapeCasts_S132000x1_S132000 j 0 rfl)

/-- The last 132000 updates carry column 1 of the value array. -/
theorem updates_right (v : FVec F S132000x2 .f32) (j : Fin 132000) :
    updates v (ix1 (Fin.natAdd 132000 j)) = v (ix2 j (1 : Fin 2)) := by
  unfold updates
  exact (join_right _ _ concatenates_S132000_S132000_S264000_d0 j).trans
    (col_apply 1 v slices_S132000x2_S132000x1_0_1 shapeCasts_S132000x1_S132000 j 1 rfl)

end Cert.KernelIdeal.Tail

end
-- ==== Proof.RefTargets.lean ====
/-
  The reference program's two update lists, entry by entry.

  The first scatter's update j targets (tgt coo(0, j) 0, tgt coo(1, j) 0) and carries value (j, 0) of the reference's
  own 132000 × 2 value array; the second scatter's update j targets (tgt coo(0, j) 1, tgt coo(1, j) 1) and carries
  value (j, 1).
-/
import proofs.«132408_j11347303596498_2_alg».proof.Proof.Gen.ReferenceIdeal.Read
import proofs.«132408_j11347303596498_2_alg».proof.Proof.LibTableRead
import proofs.«132408_j11347303596498_2_alg».proof.Proof.ScatterSpec

noncomputable section

open Idealize.ShloMosaic Idealize.ShloMosaic.ValueIdx Idealize.ShloMosaic.TableRead

namespace Cert.ReferenceIdeal.RefTail

open Cert.ReferenceIdeal Cert.ReferenceIdeal.Gen Cert.ReferenceIdeal.Read Cert.Scatter

variable {F : FTy → Type} [FloatOps F]

/-! ## Twice a table row plus the mode -/

theorem v45_apply (coo : (⟨S2x132000, .i32⟩ : BufTy).Contents (Elt F)) (j : Fin 132000) :
    val_main_v45 (F := F) coo (ix1 j) = IntOp.addi (IntOp.muli (coo (ix2 (0 : Fin 2) j)) 2#32) 0#32 := by
  unfold val_main_v45 val_main_v44
  exact (row_apply 0 (val_main_v43 (F := F) coo) slices_S2x132000_S1x132000_0_0 shapeCasts_S1x132000_S132000 j 0 rfl).trans rfl

theorem v47_apply (coo : (⟨S2x132000, .i32⟩ : BufTy).Contents (Elt F)) (j : Fin 132000) :
    val_main_v47 (F := F) coo (ix1 j) = IntOp.addi (IntOp.muli (coo (ix2 (1 : Fin 2) j)) 2#32) 0#32 := by
  unfold val_main_v47 val_main_v46
  exact (row_apply 1 (val_main_v43 (F := F) coo) slices_S2x132000_S1x132000_1_0 shapeCasts_S1x132000_S132000 j 1 rfl).trans rfl

theorem v69_apply (coo : (⟨S2x132000, .i32⟩ : BufTy).Contents (Elt F)) (j : Fin 132000) :
    val_main_v69 (F := F) coo (ix1 j) = IntOp.addi (IntOp.muli (coo (ix2 (0 : Fin 2) j)) 2#32) 1#32 := by
  unfold val_main_v69 val_main_v68
  exact (row_apply 0 (val_main_v67 (F := F) coo) slices_S2x132000_S1x132000_0_0 shapeCasts_S1x132000_S132000 j 0 rfl).trans rfl

theorem v71_apply (coo : (⟨S2x132000, .i32⟩ : BufTy).Contents (Elt F)) (j : Fin 132000) :
    val_main_v71 (F := F) coo (ix1 j) = IntOp.addi (IntOp.muli (coo (ix2 (1 : Fin 2) j)) 2#32) 1#32 := by
  unfold val_main_v71 val_main_v70
  exact (row_apply 1 (val_main_v67 (F := F) coo) slices_S2x132000_S1x132000_1_0 shapeCasts_S1x132000_S132000 j 1 rfl).trans rfl

/-! ## The coordinate with 12000 added when negative -/

theorem v54_apply (coo : (⟨S2x132000, .i32⟩ : BufTy).Contents (Elt F)) (j : Fin 132000) :
    val_main_v54 (F := F) coo (ix1 j) = tgt (coo (ix2 (0 : Fin 2) j)) 0#32 := by
  show Scalar.select (IntOp.cmpi .slt (val_main_v45 (F := F) coo (ix1 j)) 0#32) (IntOp.addi (val_main_v45 (F := F) coo (ix1 j)) 12000#32) (val_main_v45 (F := F) coo (ix1 j)) = _
  rw [v45_apply]; rfl

theorem v59_apply (coo : (⟨S2x132000, .i32⟩ : BufTy).Contents (Elt F)) (j : Fin 132000) :
    val_main_v59 (F := F) coo (ix1 j) = tgt (coo (ix2 (1 : Fin 2) j)) 0#32 := by
  show Scalar.select (IntOp.cmpi .slt (val_main_v47 (F := F) coo (ix1 j)) 0#32) (IntOp.addi (val_main_v47 (F := F) coo (ix1 j)) 12000#32) (val_main_v47 (F := F) coo (ix1 j)) = _
  rw [v47_apply]; rfl

theorem v78_apply (coo : (⟨S2x132000, .i32⟩ : BufTy).Contents (Elt F)) (j : Fin 132000) :
    val_main_v78 (F := F) coo (ix1 j) = tgt (coo (ix2 (0 : Fin 2) j)) 1#32 := by
  show Scalar.select (IntOp.cmpi .slt (val_main_v69 (F := F) coo (ix1 j)) 0#32) (IntOp.addi (val_main_v69 (F := F) coo (ix1 j)) 12000#32) (val_main_v69 (F := F) coo (ix1 j)) = _
  rw [v69_apply]; rfl

theorem v83_apply (coo : (⟨S2x132000, .i32⟩ : BufTy).Contents (Elt F)) (j : Fin 132000) :
    val_main_v83 (F := F) coo (ix1 j) = tgt (coo (ix2 (1 : Fin 2) j)) 1#32 := by
  show Scalar.select (IntOp.cmpi .slt (val_main_v71 (F := F) coo (ix1 j)) 0#32) (IntOp.addi (val_main_v71 (F := F) coo (ix1 j)) 12000#32) (val_main_v71 (F := F) coo (ix1 j)) = _
  rw [v71_apply]; rfl

/-! ## The two target tables -/

/-- The first scatter's update j targets (tgt coo(0, j) 0, tgt coo(1, j) 0). -/
theorem targetsA (coo : (⟨S2x132000, .i32⟩ : BufTy).Contents (Elt F)) (j : Fin 132000) (a : Fin 2) :
    val_main_v62 (F := F) coo (ix2 j a) = tgt (coo (ix2 a j)) 0#32 := by
  have h0 : val_main_v62 (F := F) coo (ix2 j (0 : Fin 2)) = tgt (coo (ix2 (0 : Fin 2) j)) 0#32 := by
    unfold val_main_v62 val_main_v60
    exact ((beside_left _ _ concatenates_S132000x1_S132000x1_S132000x2_d1 j).trans (column_apply _ bcast_S132000_S132000x1_0 j 0)).trans (v54_apply coo j)
  have h1 : val_main_v62 (F := F) coo (ix2 j (1 : Fin 2)) = tgt (coo (ix2 (1 : Fin 2) j)) 0#32 := by
    unfold val_main_v62 val_main_v61
    exact ((beside_right _ _ concatenates_S132000x1_S132000x1_S132000x2_d1 j).trans (column_apply _ bcast_S132000_S132000x1_0 j 0)).trans (v59_apply coo j)
  match a with
  | ⟨0, _⟩ => exact h0
  | ⟨1, _⟩ => exact h1

/-- The second scatter's update j targets (tgt coo(0, j) 1, tgt coo(1, j) 1). -/
theorem targetsB (coo : (⟨S2x132000, .i32⟩ : BufTy).Contents (Elt F)) (j : Fin 132000) (a : Fin 2) :
    val_main_v86 (F := F) coo (ix2 j a) = tgt (coo (ix2 a j)) 1#32 := by
  have h0 : val_main_v86 (F := F) coo (ix2 j (0 : Fin 2)) = tgt (coo (ix2 (0 : Fin 2) j)) 1#32 := by
    unfold val_main_v86 val_main_v84
    exact ((beside_left _ _ concatenates_S132000x1_S132000x1_S132000x2_d1 j).trans (column_apply _ bcast_S132000_S132000x1_0 j 0)).trans (v78_apply coo j)
  have h1 : val_main_v86 (F := F) coo (ix2 j (1 : Fin 2)) = tgt (coo (ix2 (1 : Fin 2) j)) 1#32 := by
    unfold val_main_v86 val_main_v85
    exact ((beside_right _ _ concatenates_S132000x1_S132000x1_S132000x2_d1 j).trans (column_apply _ bcast_S132000_S132000x1_0 j 0)).trans (v83_apply coo j)
  match a with
  | ⟨0, _⟩ => exact h0
  | ⟨1, _⟩ => exact h1

/-! ## The two update lists -/

variable (x0 : (⟨S6000x22x3, .f32⟩ : BufTy).Contents (Elt F)) (x1 : (⟨S3x64, .f32⟩ : BufTy).Contents (Elt F))
  (x2 : (⟨S64, .f32⟩ : BufTy).Contents (Elt F)) (x3 : (⟨S3x64x64, .f32⟩ : BufTy).Contents (Elt F))
  (x4 : (⟨S3x64, .f32⟩ : BufTy).Contents (Elt F)) (x5 : (⟨S64x4, .f32⟩ : BufTy).Contents (Elt F))
  (x6 : (⟨S4, .f32⟩ : BufTy).Contents (Elt F))

/-- The first scatter's update j carries value (j, 0). -/
theorem updatesA (j : Fin 132000) :
    val_main_v49 (F := F) x0 x1 x2 x3 x4 x5 x6 (ix1 j) = val_main_v38 (F := F) x0 x1 x2 x3 x4 x5 x6 (ix2 j (0 : Fin 2)) := by
  unfold val_main_v49 val_main_v48
  exact col_apply 0 (val_main_v38 (F := F) x0 x1 x2 x3 x4 x5 x6) slices_S132000x2_S132000x1_0_0 shapeCasts_S132000x1_S132000 j 0 rfl

/-- The second scatter's update j carries value (j, 1). -/
theorem updatesB (j : Fin 132000) :
    val_main_v73 (F := F) x0 x1 x2 x3 x4 x5 x6 (ix1 j) = val_main_v38 (F := F) x0 x1 x2 x3 x4 x5 x6 (ix2 j (1 : Fin 2)) := by
  unfold val_main_v73 val_main_v72
  exact col_apply 1 (val_main_v38 (F := F) x0 x1 x2 x3 x4 x5 x6) slices_S132000x2_S132000x1_0_1 shapeCasts_S132000x1_S132000 j 1 rfl

end Cert.ReferenceIdeal.RefTail

end
-- ==== Proof.RefVals.lean ====
/-
  The reference's 132000 × 2 array of per-row values, read at one entry.

  The reference computes, for all 132000 rows at once, a perceptron 3 → 64 → 64 → 64 → 64 → 4 and then, for
  each row, adds the channels 2·mi + mj over mi. Read at row m this is a computation on row m alone: every
  matrix product contributes the sum over its contracted axis of row m of the left factor times a column of the
  weights, every bias is a row vector repeated down the rows, and the zero compared against is the same in every
  entry. The lemmas below read the program one layer at a time at the entry (m, c) and state what they find with
  the affine map and the positive part of the shared specification; the last one puts the layers together.

  The three hidden layers take their weights and biases out of the stacked arrays by cutting slab l and dropping
  the slab axis; at an entry this is the entry (l, k, c) (or (l, c)) of the stacked array. The last reshape
  sends channel 2·mi + mj of row m to position (m, mi, mj), and the final sum runs over mi.
-/
import proofs.«132408_j11347303596498_2_alg».proof.Proof.Gen.ReferenceIdeal.Read
import proofs.«132408_j11347303596498_2_alg».proof.Proof.MlpSpec
import Idealize.ShloMosaic.Lib.ValueIdx
import Idealize.ShloMosaic.Lib.Pipeline.Value
import Idealize.ShloMosaic.PureOps.Ideal.Laws

noncomputable section

namespace Cert.ReferenceIdeal.RefVals

open Idealize.ShloMosaic Idealize.ShloMosaic.ValueIdx Cert.ReferenceIdeal Cert.ReferenceIdeal.Read

variable (x0 : (⟨S6000x22x3, .f32⟩ : BufTy).Contents (Elt Ideal)) (x1 : (⟨S3x64, .f32⟩ : BufTy).Contents (Elt Ideal))
  (x2 : (⟨S64, .f32⟩ : BufTy).Contents (Elt Ideal)) (x3 : (⟨S3x64x64, .f32⟩ : BufTy).Contents (Elt Ideal))
  (x4 : (⟨S3x64, .f32⟩ : BufTy).Contents (Elt Ideal)) (x5 : (⟨S64x4, .f32⟩ : BufTy).Contents (Elt Ideal))
  (x6 : (⟨S4, .f32⟩ : BufTy).Contents (Elt Ideal))

/-! ## The arithmetic of one layer

The program forms max(s + b, z) with s a sum of products, b a bias entry and z a zero; the specification calls
this the positive part of an affine map. The two spellings agree once s, b and z are identified. -/

theorem relu_affine_eq {K N : Nat} (W : Fin K → Fin N → EReal) (b : Fin N → EReal) (h : Fin K → EReal) (c : Fin N)
    (s bc z : EReal) (hs : s = ∑ k : Fin K, h k * W k c) (hb : bc = b c) (hz : z = 0) :
    max (s + bc) z = Cert.Mlp.relu (Cert.Mlp.affine W b h) c := by
  subst hs hb hz; rfl

theorem affine_eq {K N : Nat} (W : Fin K → Fin N → EReal) (b : Fin N → EReal) (h : Fin K → EReal) (c : Fin N)
    (s bc : EReal) (hs : s = ∑ k : Fin K, h k * W k c) (hb : bc = b c) :
    s + bc = Cert.Mlp.affine W b h c := by
  subst hs hb; rfl

/-! ## Biases, weights and zeros at an entry -/

/-- The first bias, repeated down the rows: entry (m, c) is b_in c. -/
theorem bin_apply (m : Fin 132000) (c : Fin 64) :
    val_main_v3 (F := Ideal) x2 (ix2 m c) = x2 (ix1 c) := by
  rw [val_main_v3_apply, val_main_v2_apply]
  exact congrArg x2 (funext fun a => by match a with | ⟨0, _⟩ => rfl)

/-- Slab 0 of the stacked hidden biases, repeated down the rows. -/
theorem bhid0_apply (m : Fin 132000) (c : Fin 64) :
    val_main_v12 (F := Ideal) x4 (ix2 m c) = x4 (ix2 (0 : Fin 3) c) := by
  rw [val_main_v12_apply, val_main_v11_apply, val_main_v10_apply, val_main_v9_apply]
  refine congrArg x4 (funext fun a => Fin.ext ?_)
  have hc := c.isLt
  match a with
  | ⟨0, _⟩ => rfl
  | ⟨1, _⟩ => show c.val % 64 = c.val; omega

/-- Slab 1 of the stacked hidden biases, repeated down the rows. -/
theorem bhid1_apply (m : Fin 132000) (c : Fin 64) :
    val_main_v21 (F := Ideal) x4 (ix2 m c) = x4 (ix2 (1 : Fin 3) c) := by
  rw [val_main_v21_apply, val_main_v20_apply, val_main_v19_apply, val_main_v18_apply]
  refine congrArg x4 (funext fun a => Fin.ext ?_)
  have hc := c.isLt
  match a with
  | ⟨0, _⟩ => rfl
  | ⟨1, _⟩ => show c.val % 64 = c.val; omega

/-- Slab 2 of the stacked hidden biases, repeated down the rows. -/
theorem bhid2_apply (m : Fin 132000) (c : Fin 64) :
    val_main_v30 (F := Ideal) x4 (ix2 m c) = x4 (ix2 (2 : Fin 3) c) := by
  rw [val_main_v30_apply, val_main_v29_apply, val_main_v28_apply, val_main_v27_apply]
  refine congrArg x4 (funext fun a => Fin.ext ?_)
  have hc := c.isLt
  match a with
  | ⟨0, _⟩ => rfl
  | ⟨1, _⟩ => show c.val % 64 = c.val; omega

/-- The last bias, repeated down the rows. -/
theorem bout_apply (m : Fin 132000) (c : Fin 4) :
    val_main_v35 (F := Ideal) x6 (ix2 m c) = x6 (ix1 c) := by
  rw [val_main_v35_apply, val_main_v34_apply]
  exact congrArg x6 (funext fun a => by match a with | ⟨0, _⟩ => rfl)

/-- Slab 0 of the stacked hidden weights as a 64 × 64 matrix. -/
theorem whid0_apply (k c : Fin 64) :
    val_main_v7 (F := Ideal) x3 (ix2 k c) = x3 (ix3 (0 : Fin 3) k c) := by
  rw [val_main_v7_apply, val_main_v6_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- Slab 1 of the stacked hidden weights as a 64 × 64 matrix. -/
theorem whid1_apply (k c : Fin 64) :
    val_main_v16 (F := Ideal) x3 (ix2 k c) = x3 (ix3 (1 : Fin 3) k c) := by
  rw [val_main_v16_apply, val_main_v15_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- Slab 2 of the stacked hidden weights as a 64 × 64 matrix. -/
theorem whid2_apply (k c : Fin 64) :
    val_main_v25 (F := Ideal) x3 (ix2 k c) = x3 (ix3 (2 : Fin 3) k c) := by
  rw [val_main_v25_apply, val_main_v24_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The array each positive part compares against is zero in every entry. -/
theorem zero0_apply (i : S132000x64.Idx) : val_main_call0_v0 (F := Ideal) i = 0 := by
  rw [val_main_call0_v0_apply, val_main_call0_cst_apply, Ideal.ofBits_def]; exact Ideal.ofBits_zero_f32
theorem zero1_apply (i : S132000x64.Idx) : val_main_call1_v0 (F := Ideal) i = 0 := by
  rw [val_main_call1_v0_apply, val_main_call1_cst_apply, Ideal.ofBits_def]; exact Ideal.ofBits_zero_f32
theorem zero2_apply (i : S132000x64.Idx) : val_main_call2_v0 (F := Ideal) i = 0 := by
  rw [val_main_call2_v0_apply, val_main_call2_cst_apply, Ideal.ofBits_def]; exact Ideal.ofBits_zero_f32
theorem zero3_apply (i : S132000x64.Idx) : val_main_call3_v0 (F := Ideal) i = 0 := by
  rw [val_main_call3_v0_apply, val_main_call3_cst_apply, Ideal.ofBits_def]; exact Ideal.ofBits_zero_f32

/-! ## The layers at an entry -/

/-- The first layer at (m, c): the positive part of the affine map 3 → 64 applied to row m of the features. -/
theorem layer0_apply (m : Fin 132000) (c : Fin 64) :
    val_main_v5 (F := Ideal) x0 x1 x2 (ix2 m c)
      = Cert.Mlp.relu (Cert.Mlp.affine (fun k c => x1 (ix2 k c)) (fun c => x2 (ix1 c))
          (fun k => val_main_v0 (F := Ideal) x0 (ix2 m k))) c := by
  rw [val_main_v5_apply, val_main_v4_apply, Ideal.maximumf_def, Ideal.addf_def]
  refine relu_affine_eq _ _ _ c _ _ _ ?_ (bin_apply x2 m c) (zero0_apply _)
  rw [val_main_v1_apply]
  refine Finset.sum_congr rfl fun k _ => ?_
  exact congrArg₂ (· * ·)
    (congrArg (val_main_v0 (F := Ideal) x0) (funext fun a => by match a with | ⟨0, _⟩ => rfl | ⟨1, _⟩ => rfl))
    (congrArg x1 (funext fun a => by match a with | ⟨0, _⟩ => rfl | ⟨1, _⟩ => rfl))

/-- The second layer at (m, c): slab 0 of the hidden weights applied to row m of the first layer. -/
theorem layer1_apply (m : Fin 132000) (c : Fin 64) :
    val_main_v14 (F := Ideal) x0 x1 x2 x3 x4 (ix2 m c)
      = Cert.Mlp.relu (Cert.Mlp.affine (fun k c => x3 (ix3 (0 : Fin 3) k c)) (fun c => x4 (ix2 (0 : Fin 3) c))
          (fun k => val_main_v5 (F := Ideal) x0 x1 x2 (ix2 m k))) c := by
  rw [val_main_v14_apply, val_main_v13_apply, Ideal.maximumf_def, Ideal.addf_def]
  refine relu_affine_eq _ _ _ c _ _ _ ?_ (bhid0_apply x4 m c) (zero1_apply _)
  rw [val_main_v8_apply]
  refine Finset.sum_congr rfl fun k _ => ?_
  refine congrArg₂ (· * ·)
    (congrArg (val_main_v5 (F := Ideal) x0 x1 x2) (funext fun a => by match a with | ⟨0, _⟩ => rfl | ⟨1, _⟩ => rfl)) ?_
  refine Eq.trans (congrArg (val_main_v7 (F := Ideal) x3) ?_) (whid0_apply x3 k c)
  exact funext fun a => by match a with | ⟨0, _⟩ => rfl | ⟨1, _⟩ => rfl

/-- The third layer at (m, c): slab 1 of the hidden weights applied to row m of the second layer. -/
theorem layer2_apply (m : Fin 132000) (c : Fin 64) :
    val_main_v23 (F := Ideal) x0 x1 x2 x3 x4 (ix2 m c)
      = Cert.Mlp.relu (Cert.Mlp.affine (fun k c => x3 (ix3 (1 : Fin 3) k c)) (fun c => x4 (ix2 (1 : Fin 3) c))
          (fun k => val_main_v14 (F := Ideal) x0 x1 x2 x3 x4 (ix2 m k))) c := by
  rw [val_main_v23_apply, val_main_v22_apply, Ideal.maximumf_def, Ideal.addf_def]
  refine relu_affine_eq _ _ _ c _ _ _ ?_ (bhid1_apply x4 m c) (zero2_apply _)
  rw [val_main_v17_apply]
  refine Finset.sum_congr rfl fun k _ => ?_
  refine congrArg₂ (· * ·)
    (congrArg (val_main_v14 (F := Ideal) x0 x1 x2 x3 x4) (funext fun a => by match a with | ⟨0, _⟩ => rfl | ⟨1, _⟩ => rfl)) ?_
  refine Eq.trans (congrArg (val_main_v16 (F := Ideal) x3) ?_) (whid1_apply x3 k c)
  exact funext fun a => by match a with | ⟨0, _⟩ => rfl | ⟨1, _⟩ => rfl

/-- The fourth layer at (m, c): slab 2 of the hidden weights applied to row m of the third layer. -/
theorem layer3_apply (m : Fin 132000) (c : Fin 64) :
    val_main_v32 (F := Ideal) x0 x1 x2 x3 x4 (ix2 m c)
      = Cert.Mlp.relu (Cert.Mlp.affine (fun k c => x3 (ix3 (2 : Fin 3) k c)) (fun c => x4 (ix2 (2 : Fin 3) c))
          (fun k => val_main_v23 (F := Ideal) x0 x1 x2 x3 x4 (ix2 m k))) c := by
  rw [val_main_v32_apply, val_main_v31_apply, Ideal.maximumf_def, Ideal.addf_def]
  refine relu_affine_eq _ _ _ c _ _ _ ?_ (bhid2_apply x4 m c) (zero3_apply _)
  rw [val_main_v26_apply]
  refine Finset.sum_congr rfl fun k _ => ?_
  refine congrArg₂ (· * ·)
    (congrArg (val_main_v23 (F := Ideal) x0 x1 x2 x3 x4) (funext fun a => by match a with | ⟨0, _⟩ => rfl | ⟨1, _⟩ => rfl)) ?_
  refine Eq.trans (congrArg (val_main_v25 (F := Ideal) x3) ?_) (whid2_apply x3 k c)
  exact funext fun a => by match a with | ⟨0, _⟩ => rfl | ⟨1, _⟩ => rfl

/-- The four output channels at (m, c): the last affine map 64 → 4 applied to row m of the fourth layer. -/
theorem out_apply (m : Fin 132000) (c : Fin 4) :
    val_main_v36 (F := Ideal) x0 x1 x2 x3 x4 x5 x6 (ix2 m c)
      = Cert.Mlp.affine (fun k c => x5 (ix2 k c)) (fun c => x6 (ix1 c))
          (fun k => val_main_v32 (F := Ideal) x0 x1 x2 x3 x4 (ix2 m k)) c := by
  rw [val_main_v36_apply, Ideal.addf_def]
  refine affine_eq _ _ _ c _ _ ?_ (bout_apply x6 m c)
  rw [val_main_v33_apply]
  refine Finset.sum_congr rfl fun k _ => ?_
  exact congrArg₂ (· * ·)
    (congrArg (val_main_v32 (F := Ideal) x0 x1 x2 x3 x4) (funext fun a => by match a with | ⟨0, _⟩ => rfl | ⟨1, _⟩ => rfl))
    (congrArg x5 (funext fun a => by match a with | ⟨0, _⟩ => rfl | ⟨1, _⟩ => rfl))

/-! ## The rows of the layers as functions, and the whole row -/

/-- Row m of the four output channels is the specification's perceptron applied to row m of the features. -/
theorem out_row (m : Fin 132000) :
    (fun c : Fin 4 => val_main_v36 (F := Ideal) x0 x1 x2 x3 x4 x5 x6 (ix2 m c))
      = Cert.Mlp.mlpRow (fun k c => x1 (ix2 k c)) (fun c => x2 (ix1 c)) (fun l k c => x3 (ix3 l k c))
          (fun l c => x4 (ix2 l c)) (fun k c => x5 (ix2 k c)) (fun c => x6 (ix1 c))
          (fun k => val_main_v0 (F := Ideal) x0 (ix2 m k)) := by
  have h0 : (fun c : Fin 64 => val_main_v5 (F := Ideal) x0 x1 x2 (ix2 m c)) = _ :=
    funext fun c => layer0_apply x0 x1 x2 m c
  have h1 : (fun c : Fin 64 => val_main_v14 (F := Ideal) x0 x1 x2 x3 x4 (ix2 m c)) = _ :=
    funext fun c => layer1_apply x0 x1 x2 x3 x4 m c
  have h2 : (fun c : Fin 64 => val_main_v23 (F := Ideal) x0 x1 x2 x3 x4 (ix2 m c)) = _ :=
    funext fun c => layer2_apply x0 x1 x2 x3 x4 m c
  have h3 : (fun c : Fin 64 => val_main_v32 (F := Ideal) x0 x1 x2 x3 x4 (ix2 m c)) = _ :=
    funext fun c => layer3_apply x0 x1 x2 x3 x4 m c
  funext c
  rw [out_apply, h3, h2, h1, h0]
  rfl

/-- The reference's value at row m and mode q: channel q plus channel 2 + q of row m's perceptron output. -/
theorem vals_apply (x0 : (⟨S6000x22x3, .f32⟩ : BufTy).Contents (Elt Ideal)) (x1 : (⟨S3x64, .f32⟩ : BufTy).Contents (Elt Ideal)) (x2 : (⟨S64, .f32⟩ : BufTy).Contents (Elt Ideal)) (x3 : (⟨S3x64x64, .f32⟩ : BufTy).Contents (Elt Ideal)) (x4 : (⟨S3x64, .f32⟩ : BufTy).Contents (Elt Ideal)) (x5 : (⟨S64x4, .f32⟩ : BufTy).Contents (Elt Ideal)) (x6 : (⟨S4, .f32⟩ : BufTy).Contents (Elt Ideal)) (m : Fin 132000) (q : Fin 2) :
    val_main_v38 (F := Ideal) x0 x1 x2 x3 x4 x5 x6 (ix2 m q)
      = Cert.Mlp.valsRow (fun k c => x1 (ix2 k c)) (fun c => x2 (ix1 c)) (fun l k c => x3 (ix3 l k c)) (fun l c => x4 (ix2 l c)) (fun k c => x5 (ix2 k c)) (fun c => x6 (ix1 c)) (fun k => val_main_v0 (F := Ideal) x0 (ix2 m k)) q := by
  have hq := q.isLt
  have e0 : idx_main_v37 (idx_main_v38 (ix2 m q) (0 : Fin 2)) = ix2 m (⟨q.val, by omega⟩ : Fin 4) := by
    refine funext fun a => Fin.ext ?_
    have hm := m.isLt
    match a with
    | ⟨0, _⟩ => show ((m.val * 2 + 0) * 2 + q.val) / 4 = m.val; omega
    | ⟨1, _⟩ => show ((m.val * 2 + 0) * 2 + q.val) % 4 = q.val; omega
  have e1 : idx_main_v37 (idx_main_v38 (ix2 m q) (1 : Fin 2)) = ix2 m (⟨2 + q.val, by omega⟩ : Fin 4) := by
    refine funext fun a => Fin.ext ?_
    have hm := m.isLt
    match a with
    | ⟨0, _⟩ => show ((m.val * 2 + 1) * 2 + q.val) / 4 = m.val; omega
    | ⟨1, _⟩ => show ((m.val * 2 + 1) * 2 + q.val) % 4 = 2 + q.val; omega
  rw [val_main_v38_apply, val_main_cst_apply, Ideal.ofBits_def, Ideal.ofBits_zero_f32, zero_add, Fin.sum_univ_two,
    val_main_v37_apply, val_main_v37_apply, e0, e1]
  unfold Cert.Mlp.valsRow
  rw [← out_row x0 x1 x2 x3 x4 x5 x6 m]

end Cert.ReferenceIdeal.RefVals

end
-- ==== Proof.LibScatterSplit.lean ====
/-
  An accumulating scatter of a concatenated update list is two accumulating scatters in a row.

  Setting: an r × c array of extended reals receives a list of updates; update number j carries a value and a pair of
  signed integers (row, column) read from a two-column integer table, and is added to the entry at that place when
  the place lies inside the array and dropped otherwise. On the extended reals the result at an entry is the entry
  plus the sum of the values of all updates that land on it.

  If the list has length n + n, then scattering it in one go equals scattering its first n updates and then its last n
  updates: at each entry the sum over the updates landing there splits into the sum over those among the first half
  and the sum over those among the second half, and addition is associative. No cancellation and no distributivity
  is used, so the statement holds with infinite values too.
-/
import Idealize.ShloMosaic.Lib.ValueIdx
import Idealize.ShloMosaic.PureOps.Ideal.Laws

noncomputable section

namespace Idealize.ShloMosaic.ScatterSplit

open Idealize.ShloMosaic Idealize.ShloMosaic.ValueIdx

/-- The dimension numbers of "add value j at the (row, column) found in row j of an n × 2 index table": no window
    axes in the updates, both array axes addressed by the index pair, the pair laid along axis 1 of the table. -/
def dims (r c n : Nat) (h : ScatterDims.WF ⟨2, ![r, c]⟩ ⟨2, ![n, 2]⟩ ⟨1, ![n]⟩ [] [0, 1] [0, 1] 1) :
    ScatterDims ⟨2, ![r, c]⟩ ⟨2, ![n, 2]⟩ ⟨1, ![n]⟩ :=
  ⟨[], [0, 1], [0, 1], 1, h⟩

variable {r c : Nat}

/-- An update is a single element: its window offset is zero on both array axes. -/
theorem window_eq (n : Nat) (h) (j : (⟨1, ![n]⟩ : Shape).Idx) (a : Fin 2) : (dims r c n h).window j a = 0 := by
  unfold ScatterDims.window
  rw [dif_neg]
  show a ∉ (List.finRange 2).filter (· ∉ ([0, 1] : List (Fin 2)))
  revert a; decide

/-- Update j reads component a of its target from entry (j, a) of the index table. -/
theorem siIdx_eq (n : Nat) (h) (j : (⟨1, ![n]⟩ : Shape).Idx) (a : Fin 2) :
    (dims r c n h).siIdx j ⟨a.val, a.isLt⟩ = ix2 (j 0) a := by
  funext b
  apply Fin.ext
  match b with
  | ⟨0, _⟩ => rfl
  | ⟨1, _⟩ => rfl

/-- The target coordinate of update j on array axis a is the signed value of table entry (j, a). -/
theorem start_eq (n : Nat) (h) (j : (⟨1, ![n]⟩ : Shape).Idx) {w : Nat} (idx : IVec ⟨2, ![n, 2]⟩ w) (a : Fin 2) :
    (dims r c n h).start j idx a = (idx (ix2 (j 0) a)).toInt := by
  unfold ScatterDims.start
  have ha : a ∈ ([0, 1] : List (Fin 2)) := by revert a; decide
  rw [dif_pos (show a ∈ (dims r c n h).scatterDimsToOperandDims from ha)]
  refine congrArg (fun k => (idx k).toInt) ?_
  match a with
  | ⟨0, _⟩ => exact siIdx_eq n h j 0
  | ⟨1, _⟩ => exact siIdx_eq n h j 1

/-- Two updates, possibly of two different lists, whose table rows agree land at the same place (or are both dropped). -/
theorem resultIdx?_congr {n n' : Nat} (h) (h') (j : (⟨1, ![n]⟩ : Shape).Idx) (j' : (⟨1, ![n']⟩ : Shape).Idx) {w : Nat}
    (idx : IVec ⟨2, ![n, 2]⟩ w) (idx' : IVec ⟨2, ![n', 2]⟩ w)
    (hidx : ∀ a : Fin 2, idx (ix2 (j 0) a) = idx' (ix2 (j' 0) a)) :
    (dims r c n h).resultIdx? j idx = (dims r c n' h').resultIdx? j' idx' := by
  unfold ScatterDims.resultIdx?
  have hs : ∀ a : Fin 2, (dims r c n h).start j idx a = (dims r c n' h').start j' idx' a := fun a => by
    rw [start_eq, start_eq, hidx a]
  have hw : ∀ a : Fin 2, (dims r c n h).window j a = (dims r c n' h').window j' a := fun a => by
    rw [window_eq, window_eq]
  simp only [hs, hw]

/-- A rank-one index is its one coordinate. -/
def idx1Equiv (n : Nat) : (⟨1, ![n]⟩ : Shape).Idx ≃ Fin n where
  toFun j := j 0
  invFun a := ix1 a
  left_inv j := (eq_ix1 j).symm
  right_inv _ := rfl

/-- THE SPLIT. If the first n updates of a list of n + n are the list (idxA, updA) and the last n are (idxB, updB), the
    one scatter of the long list is the scatter of the first list followed by the scatter of the second. -/
theorem scatterAdd_split (n : Nat) (hB) (hH) (x : (⟨2, ![r, c]⟩ : Shape).Idx → EReal)
    (idx : IVec ⟨2, ![n + n, 2]⟩ 32) (upd : (⟨1, ![n + n]⟩ : Shape).Idx → EReal)
    (idxA idxB : IVec ⟨2, ![n, 2]⟩ 32) (updA updB : (⟨1, ![n]⟩ : Shape).Idx → EReal)
    (hiA : ∀ (j : Fin n) (a : Fin 2), idx (ix2 (Fin.castAdd n j) a) = idxA (ix2 j a))
    (huA : ∀ j : Fin n, upd (ix1 (Fin.castAdd n j)) = updA (ix1 j))
    (hiB : ∀ (j : Fin n) (a : Fin 2), idx (ix2 (Fin.natAdd n j) a) = idxB (ix2 j a))
    (huB : ∀ j : Fin n, upd (ix1 (Fin.natAdd n j)) = updB (ix1 j)) :
    Ideal.hostScatterAdd (dims r c (n + n) hB) x idx upd
      = Ideal.hostScatterAdd (dims r c n hH) (Ideal.hostScatterAdd (dims r c n hH) x idxA updA) idxB updB := by
  funext i
  unfold Ideal.hostScatterAdd
  rw [add_assoc]
  congr 1
  -- the sum over the updates landing on i, as a sum over all update numbers of the value or zero
  rw [Finset.sum_filter, Finset.sum_filter, Finset.sum_filter,
    ← (idx1Equiv (n + n)).symm.sum_comp, ← (idx1Equiv n).symm.sum_comp, ← (idx1Equiv n).symm.sum_comp,
    Fin.sum_univ_add]
  congr 1
  · refine Finset.sum_congr rfl fun j _ => ?_
    show (if (dims r c (n + n) hB).resultIdx? (ix1 (Fin.castAdd n j)) idx = some i then upd (ix1 (Fin.castAdd n j)) else 0)
      = if (dims r c n hH).resultIdx? (ix1 j) idxA = some i then updA (ix1 j) else 0
    rw [resultIdx?_congr hB hH (ix1 (Fin.castAdd n j)) (ix1 j) idx idxA (fun a => hiA j a), huA j]
  · refine Finset.sum_congr rfl fun j _ => ?_
    show (if (dims r c (n + n) hB).resultIdx? (ix1 (Fin.natAdd n j)) idx = some i then upd (ix1 (Fin.natAdd n j)) else 0)
      = if (dims r c n hH).resultIdx? (ix1 j) idxB = some i then updB (ix1 j) else 0
    rw [resultIdx?_congr hB hH (ix1 (Fin.natAdd n j)) (ix1 j) idx idxB (fun a => hiB j a), huB j]

end Idealize.ShloMosaic.ScatterSplit

end
-- ==== Proof.Bridge.lean ====
/-
  The two programs' result arrays are one function of the arguments.

  The kernel program adds one list of 264000 updates into a zero array; the reference adds the first 132000 of the
  same updates and then the last 132000. Update by update the targets agree (both are tgt of the same table entry and
  mode) and the values agree (both are the per-row value of the specification at the same row and mode), so the
  split of an accumulating scatter applies.
-/
import proofs.«132408_j11347303596498_2_alg».proof.Proof.KernelTargets
import proofs.«132408_j11347303596498_2_alg».proof.Proof.RefTargets
import proofs.«132408_j11347303596498_2_alg».proof.Proof.RefVals
import proofs.«132408_j11347303596498_2_alg».proof.Proof.MlpSpec
import proofs.«132408_j11347303596498_2_alg».proof.Proof.LibScatterSplit

noncomputable section

open Idealize.ShloMosaic Idealize.ShloMosaic.ValueIdx

namespace Cert.Bridge

open Cert.ReferenceIdeal.Read

variable (a0 : (⟨Cert.ReferenceIdeal.S6000x22x3, .f32⟩ : BufTy).Contents (Elt Ideal)) (a1 : (⟨Cert.ReferenceIdeal.S3x64, .f32⟩ : BufTy).Contents (Elt Ideal))
  (a2 : (⟨Cert.ReferenceIdeal.S64, .f32⟩ : BufTy).Contents (Elt Ideal)) (a3 : (⟨Cert.ReferenceIdeal.S3x64x64, .f32⟩ : BufTy).Contents (Elt Ideal))
  (a4 : (⟨Cert.ReferenceIdeal.S3x64, .f32⟩ : BufTy).Contents (Elt Ideal)) (a5 : (⟨Cert.ReferenceIdeal.S64x4, .f32⟩ : BufTy).Contents (Elt Ideal))
  (a6 : (⟨Cert.ReferenceIdeal.S4, .f32⟩ : BufTy).Contents (Elt Ideal)) (coo : (⟨Cert.ReferenceIdeal.S2x132000, .i32⟩ : BufTy).Contents (Elt Ideal))

/-- The specification's value array on the reference's spelling of the re-laid feature matrix. -/
abbrev V : (⟨2, ![132000, 2]⟩ : Shape).Idx → EReal := Cert.Mlp.vals a1 a2 a3 a4 a5 a6 (val_main_v0 (F := Ideal) a0)

/-- The reference's own value array is the specification's, entry by entry. -/
theorem v38_apply (j : Fin 132000) (q : Fin 2) :
    val_main_v38 (F := Ideal) a0 a1 a2 a3 a4 a5 a6 (ix2 j q) = V a0 a1 a2 a3 a4 a5 a6 (ix2 j q) :=
  Cert.ReferenceIdeal.RefVals.vals_apply a0 a1 a2 a3 a4 a5 a6 j q

/-- THE BRIDGE: the kernel program's result function of the table and the specification's value array is the
    reference's result stage of the arguments. -/
theorem result_eq :
    Cert.KernelIdeal.Tail.result (F := Ideal) coo (V a0 a1 a2 a3 a4 a5 a6)
      = val_main_v87 (F := Ideal) a0 a1 a2 a3 a4 a5 a6 coo := by
  have hiA : ∀ (j : Fin 132000) (a : Fin 2),
      Cert.KernelIdeal.Tail.targets coo (ix2 (Fin.castAdd 132000 j) a) = val_main_v62 (F := Ideal) coo (ix2 j a) :=
    fun j a => (Cert.KernelIdeal.Tail.targets_left coo j a).trans (Cert.ReferenceIdeal.RefTail.targetsA coo j a).symm
  have hiB : ∀ (j : Fin 132000) (a : Fin 2),
      Cert.KernelIdeal.Tail.targets coo (ix2 (Fin.natAdd 132000 j) a) = val_main_v86 (F := Ideal) coo (ix2 j a) :=
    fun j a => (Cert.KernelIdeal.Tail.targets_right coo j a).trans (Cert.ReferenceIdeal.RefTail.targetsB coo j a).symm
  have huA : ∀ j : Fin 132000,
      Cert.KernelIdeal.Tail.updates (F := Ideal) (V a0 a1 a2 a3 a4 a5 a6) (ix1 (Fin.castAdd 132000 j))
        = val_main_v49 (F := Ideal) a0 a1 a2 a3 a4 a5 a6 (ix1 j) :=
    fun j => (Cert.KernelIdeal.Tail.updates_left (F := Ideal) (V a0 a1 a2 a3 a4 a5 a6) j).trans
      ((v38_apply a0 a1 a2 a3 a4 a5 a6 j 0).symm.trans (Cert.ReferenceIdeal.RefTail.updatesA a0 a1 a2 a3 a4 a5 a6 j).symm)
  have huB : ∀ j : Fin 132000,
      Cert.KernelIdeal.Tail.updates (F := Ideal) (V a0 a1 a2 a3 a4 a5 a6) (ix1 (Fin.natAdd 132000 j))
        = val_main_v73 (F := Ideal) a0 a1 a2 a3 a4 a5 a6 (ix1 j) :=
    fun j => (Cert.KernelIdeal.Tail.updates_right (F := Ideal) (V a0 a1 a2 a3 a4 a5 a6) j).trans
      ((v38_apply a0 a1 a2 a3 a4 a5 a6 j 1).symm.trans (Cert.ReferenceIdeal.RefTail.updatesB a0 a1 a2 a3 a4 a5 a6 j).symm)
  have e := Idealize.ShloMosaic.ScatterSplit.scatterAdd_split (r := 12000) (c := 12000) 132000
    Cert.KernelIdeal.scatter_S12000x12000_S264000x2_S264000_n_01_01_1.wf
    Cert.ReferenceIdeal.scatter_S12000x12000_S132000x2_S132000_n_01_01_1.wf
    (val_main_v39 (F := Ideal)) (Cert.KernelIdeal.Tail.targets coo) (Cert.KernelIdeal.Tail.updates (F := Ideal) (V a0 a1 a2 a3 a4 a5 a6))
    (val_main_v62 (F := Ideal) coo) (val_main_v86 (F := Ideal) coo)
    (val_main_v49 (F := Ideal) a0 a1 a2 a3 a4 a5 a6) (val_main_v73 (F := Ideal) a0 a1 a2 a3 a4 a5 a6) hiA huA hiB huB
  unfold Cert.KernelIdeal.Tail.result val_main_v87 val_main_v63
  exact e

end Cert.Bridge

end
-- ==== Proof.Claims.lean ====
/-
  The five claims.

  Frames: the two kernel programs' frames are the generated ones; the reference has no kernel, and its frame is its run
  with the result forgotten. The idealization rewrote nothing, so the preservation claim is trivial.

  The value claim: the idealized kernel program ends with its result array at the scatter of 264000 updates built from
  the integer table and the per-row values of the specification; the reference ends at two scatters of 132000 updates
  each built from the same table and the same per-row values; the bridge says these are one array.
-/
import proofs.«132408_j11347303596498_2_alg».proof.Defs
import proofs.«132408_j11347303596498_2_alg».proof.Proof.Gen.Kernel.Frame
import proofs.«132408_j11347303596498_2_alg».proof.Proof.Gen.KernelIdeal.Frame
import proofs.«132408_j11347303596498_2_alg».proof.Proof.Gen.Pre_finite_inputs
import proofs.«132408_j11347303596498_2_alg».proof.Proof.Gen.ReferenceIdeal.Run
import proofs.«132408_j11347303596498_2_alg».proof.Proof.Gen.ReferenceIdeal.Read
import proofs.«132408_j11347303596498_2_alg».proof.Proof.KernelRun
import proofs.«132408_j11347303596498_2_alg».proof.Proof.Bridge

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eight arguments both idealized programs end with the same 12000 × 12000 array. -/
theorem algebraic : Cert.algebraic_KernelIdeal_ReferenceIdeal := by
  intro m ρ m' ρ' _ hagree
  refine ⟨fun c => Cert.KernelIdeal.Tail.result (F := Ideal)
      (m ((c : Thread Cert.KernelIdeal.nD Cert.KernelIdeal.τ).loc Cert.KernelIdeal.main_arg7)) (Cert.KernelIdeal.Arr.G m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v87_eq, e0, e1, e2, e3, e4, e5, e6, e7]
  exact (Cert.Bridge.result_eq _ _ _ _ _ _ _ _).symm

end Cert.Proof.Claims

end
-- ==== Proof.lean ====
/-
  The certificate of a perceptron kernel followed by an accumulating scatter, against its plain reference.

  Both programs send each of 132000 rows of three features through a perceptron 3 → 64 → 64 → 64 → 64 → 4 (max(·, 0)
  after the first four layers), add output channels q and q + 2 into a value for each mode q ∈ {0, 1}, and add the values
  into a zero 12000 × 12000 array at places read from an integer table. The kernel program computes the values in 22 blocks
  of 6000 rows and scatters all 264000 of them at once; the reference computes them whole and scatters mode 0 and then
  mode 1. On the extended reals the two results are equal: block by block the perceptron is the same function of a row
  (a change of float format is the identity, and a matrix product accumulated from zero is the plain sum); and a sum over
  264000 updates splits into the sums over its two halves. Only associativity of addition is used; nothing needs the
  inputs to be finite.

  Modules: MlpSpec (the row function), KernelBlock (one grid point of the kernel at an entry), KernelArray (the blocks
  assembled into the value array), KernelTail / KernelTailRun / KernelTargets (the lines after the region as a function,
  that they compute it, and its update list entry by entry), KernelRun (the kernel program's run read), RefVals and
  RefTargets (the reference's value array and update lists entry by entry), ScatterSpec, LibTableRead, LibPlainDot,
  LibScatterSplit (the general lemmas), Bridge (the two results are one array), Claims.
-/
import proofs.«132408_j11347303596498_2_alg».proof.Defs
import proofs.«132408_j11347303596498_2_alg».proof.Proof.Gen.Kernel
import proofs.«132408_j11347303596498_2_alg».proof.Proof.Gen.Kernel.Skeleton
import proofs.«132408_j11347303596498_2_alg».proof.Proof.Gen.Kernel.Launch
import proofs.«132408_j11347303596498_2_alg».proof.Proof.Gen.Kernel.Points
import proofs.«132408_j11347303596498_2_alg».proof.Proof.Gen.Kernel.Frame
import proofs.«132408_j11347303596498_2_alg».proof.Proof.Gen.KernelIdeal
import proofs.«132408_j11347303596498_2_alg».proof.Proof.Gen.KernelIdeal.Skeleton
import proofs.«132408_j11347303596498_2_alg».proof.Proof.Gen.KernelIdeal.Launch
import proofs.«132408_j11347303596498_2_alg».proof.Proof.Gen.KernelIdeal.Points
import proofs.«132408_j11347303596498_2_alg».proof.Proof.Gen.KernelIdeal.Frame
import proofs.«132408_j11347303596498_2_alg».proof.Proof.Gen.ReferenceIdeal
import proofs.«132408_j11347303596498_2_alg».proof.Proof.Gen.Pre_finite_inputs
import proofs.«132408_j11347303596498_2_alg».proof.Proof.Gen.ReferenceIdeal.Run
import proofs.«132408_j11347303596498_2_alg».proof.Proof.Gen.ReferenceIdeal.Read
import proofs.«132408_j11347303596498_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
